-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S1000000 : Shape := ⟨1, ![1000000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S128 .f32) (main_arg8 : FVec F S128x128 .f32) (main_arg9 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg4 : FVec F S128x128 .f32) (main_arg5 : FVec F S128 .f32) (main_arg6 : FVec F S128x128 .f32) (main_arg7 : FVec F S128 .f32) (main_arg8 : FVec F S128x128 .f32) (main_arg9 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_v33

def fn {F : FTy → Type} [FloatOps F] (main_arg0 : FVec F S100000x128 .f32) (main_arg1 : FVec F S100000x128 .f32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : IVec S1000000 32) (main_arg11 : IVec S1000000 32) (main_arg12 : IVec S1000000 32) (main_arg13 : IVec S1000000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_v13 main_v16
-- ==== Kernel.lean ====
abbrev S100000x128 : Shape := ⟨2, ![100000, 128]⟩
abbrev S128x128 : Shape := ⟨2, ![128, 128]⟩
abbrev S128 : Shape := ⟨1, ![128]⟩
abbrev S1000000 : Shape := ⟨1, ![1000000]⟩
abbrev S_ : Shape := ⟨0, ![]⟩
abbrev S100000 : Shape := ⟨1, ![100000]⟩
abbrev S1000000x1 : Shape := ⟨2, ![1000000, 1]⟩
abbrev S10000x128 : Shape := ⟨2, ![10000, 128]⟩
abbrev S1000000x128 : Shape := ⟨2, ![1000000, 128]⟩
abbrev S100000x1 : Shape := ⟨2, ![100000, 1]⟩
abbrev S1x128 : Shape := ⟨2, ![1, 128]⟩
abbrev S5000x128 : Shape := ⟨2, ![5000, 128]⟩
abbrev S5000x1 : Shape := ⟨2, ![5000, 1]⟩
abbrev S1x100000x128 : Shape := ⟨3, ![1, 100000, 128]⟩
abbrev S2x100000x128 : Shape := ⟨3, ![2, 100000, 128]⟩

abbrev nBuf : Space → Nat
  | .hbm => 95
  | .vmem => 48
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S1000000, .i32⟩
  | .hbm, ⟨11, _⟩ => ⟨S1000000, .i32⟩
  | .hbm, ⟨12, _⟩ => ⟨S1000000, .i32⟩
  | .hbm, ⟨13, _⟩ => ⟨S1000000, .i32⟩
  | .hbm, ⟨14, _⟩ => ⟨S_, .f32⟩
  | .hbm, ⟨15, _⟩ => ⟨S1000000, .f32⟩
  | .hbm, ⟨16, _⟩ => ⟨S_, .f32⟩
  | .hbm, ⟨17, _⟩ => ⟨S100000, .f32⟩
  | .hbm, ⟨18, _⟩ => ⟨S1000000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S1000000x1, .i32⟩
  | .hbm, ⟨23, _⟩ => ⟨S100000, .f32⟩
  | .hbm, ⟨24, _⟩ => ⟨S100000x128, .f32⟩
  | .hbm, ⟨25, _⟩ => ⟨S_, .i32⟩
  | .hbm, ⟨26, _⟩ => ⟨S1000000, .i32⟩
  | .hbm, ⟨27, _⟩ => ⟨S1000000, .i1⟩
  | .hbm, ⟨28, _⟩ => ⟨S_, .i32⟩
  | .hbm, ⟨29, _⟩ => ⟨S1000000, .i32⟩
  | .hbm, ⟨30, _⟩ => ⟨S1000000, .i32⟩
  | .hbm, ⟨31, _⟩ => ⟨S1000000, .i32⟩
  | .hbm, ⟨32, _⟩ => ⟨S1000000x1, .i32⟩
  | .hbm, ⟨33, _⟩ => ⟨S1000000x128, .f32⟩
  | .hbm, ⟨34, _⟩ => ⟨S_, .f32⟩
  | .hbm, ⟨35, _⟩ => ⟨S100000x128, .f32⟩
  | .hbm, ⟨36, _⟩ => ⟨S1000000x1, .i32⟩
  | .hbm, ⟨37, _⟩ => ⟨S100000x128, .f32⟩
  | .hbm, ⟨38, _⟩ => ⟨S100000x1, .f32⟩
  | .hbm, ⟨39, _⟩ => ⟨S1x128, .f32⟩
  | .hbm, ⟨40, _⟩ => ⟨S100000x128, .f32⟩
  | .hbm, ⟨41, _⟩ => ⟨S100000x128, .f32⟩
  | .hbm, ⟨42, _⟩ => ⟨S_, .i32⟩
  | .hbm, ⟨43, _⟩ => ⟨S1000000, .i32⟩
  | .hbm, ⟨44, _⟩ => ⟨S1000000, .i1⟩
  | .hbm, ⟨45, _⟩ => ⟨S_, .i32⟩
  | .hbm, ⟨46, _⟩ => ⟨S1000000, .i32⟩
  | .hbm, ⟨47, _⟩ => ⟨S1000000, .i32⟩
  | .hbm, ⟨48, _⟩ => ⟨S1000000, .i32⟩
  | .hbm, ⟨49, _⟩ => ⟨S1000000x1, .i32⟩
  | .hbm, ⟨50, _⟩ => ⟨S1000000x128, .f32⟩
  | .hbm, ⟨51, _⟩ => ⟨S_, .f32⟩
  | .hbm, ⟨52, _⟩ => ⟨S100000x128, .f32⟩
  | .hbm, ⟨53, _⟩ => ⟨S1000000x1, .i32⟩
  | .hbm, ⟨54, _⟩ => ⟨S100000x128, .f32⟩
  | .hbm, ⟨55, _⟩ => ⟨S100000x1, .f32⟩
  | .hbm, ⟨56, _⟩ => ⟨S1x128, .f32⟩
  | .hbm, ⟨57, _⟩ => ⟨S100000x128, .f32⟩
  | .hbm, ⟨58, _⟩ => ⟨S100000x128, .f32⟩
  | .hbm, ⟨59, _⟩ => ⟨S_, .i32⟩
  | .hbm, ⟨60, _⟩ => ⟨S1000000, .i32⟩
  | .hbm, ⟨61, _⟩ => ⟨S1000000, .i1⟩
  | .hbm, ⟨62, _⟩ => ⟨S_, .i32⟩
  | .hbm, ⟨63, _⟩ => ⟨S1000000, .i32⟩
  | .hbm, ⟨64, _⟩ => ⟨S1000000, .i32⟩
  | .hbm, ⟨65, _⟩ => ⟨S1000000, .i32⟩
  | .hbm, ⟨66, _⟩ => ⟨S1000000x1, .i32⟩
  | .hbm, ⟨67, _⟩ => ⟨S1000000x128, .f32⟩
  | .hbm, ⟨68, _⟩ => ⟨S_, .f32⟩
  | .hbm, ⟨69, _⟩ => ⟨S100000x128, .f32⟩
  | .hbm, ⟨70, _⟩ => ⟨S1000000x1, .i32⟩
  | .hbm, ⟨71, _⟩ => ⟨S100000x128, .f32⟩
  | .hbm, ⟨72, _⟩ => ⟨S100000x1, .f32⟩
  | .hbm, ⟨73, _⟩ => ⟨S1x128, .f32⟩
  | .hbm, ⟨74, _⟩ => ⟨S100000x128, .f32⟩
  | .hbm, ⟨75, _⟩ => ⟨S100000x128, .f32⟩
  | .hbm, ⟨76, _⟩ => ⟨S_, .i32⟩
  | .hbm, ⟨77, _⟩ => ⟨S1000000, .i32⟩
  | .hbm, ⟨78, _⟩ => ⟨S1000000, .i1⟩
  | .hbm, ⟨79, _⟩ => ⟨S_, .i32⟩
  | .hbm, ⟨80, _⟩ => ⟨S1000000, .i32⟩
  | .hbm, ⟨81, _⟩ => ⟨S1000000, .i32⟩
  | .hbm, ⟨82, _⟩ => ⟨S1000000, .i32⟩
  | .hbm, ⟨83, _⟩ => ⟨S1000000x1, .i32⟩
  | .hbm, ⟨84, _⟩ => ⟨S1000000x128, .f32⟩
  | .hbm, ⟨85, _⟩ => ⟨S_, .f32⟩
  | .hbm, ⟨86, _⟩ => ⟨S100000x128, .f32⟩
  | .hbm, ⟨87, _⟩ => ⟨S1000000x1, .i32⟩
  | .hbm, ⟨88, _⟩ => ⟨S100000x128, .f32⟩
  | .hbm, ⟨89, _⟩ => ⟨S100000x1, .f32⟩
  | .hbm, ⟨90, _⟩ => ⟨S1x128, .f32⟩
  | .hbm, ⟨91, _⟩ => ⟨S100000x128, .f32⟩
  | .hbm, ⟨92, _⟩ => ⟨S1x100000x128, .f32⟩
  | .hbm, ⟨93, _⟩ => ⟨S1x100000x128, .f32⟩
  | .hbm, ⟨94, _⟩ => ⟨S2x100000x128, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S5000x128, .f32⟩
  | .local _ .vmem, ⟨6, _⟩ => ⟨S5000x128, .f32⟩
  | .local _ .vmem, ⟨7, _⟩ => ⟨S5000x1, .f32⟩
  | .local _ .vmem, ⟨8, _⟩ => ⟨S5000x1, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S10000x128, .f32⟩
  | .local _ .vmem, ⟨13, _⟩ => ⟨S10000x128, .f32⟩
  | .local _ .vmem, ⟨14, _⟩ => ⟨S128x128, .f32⟩
  | .local _ .vmem, ⟨15, _⟩ => ⟨S10000x128, .f32⟩
  | .local _ .vmem, ⟨16, _⟩ => ⟨S10000x128, .f32⟩
  | .local _ .vmem, ⟨17, _⟩ => ⟨S5000x128, .f32⟩
  | .local _ .vmem, ⟨18, _⟩ => ⟨S5000x128, .f32⟩
  | .local _ .vmem, ⟨19, _⟩ => ⟨S5000x1, .f32⟩
  | .local _ .vmem, ⟨20, _⟩ => ⟨S5000x1, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | .local _ .vmem, ⟨24, _⟩ => ⟨S10000x128, .f32⟩
  | .local _ .vmem, ⟨25, _⟩ => ⟨S10000x128, .f32⟩
  | .local _ .vmem, ⟨26, _⟩ => ⟨S128x128, .f32⟩
  | .local _ .vmem, ⟨27, _⟩ => ⟨S10000x128, .f32⟩
  | .local _ .vmem, ⟨28, _⟩ => ⟨S10000x128, .f32⟩
  | .local _ .vmem, ⟨29, _⟩ => ⟨S5000x128, .f32⟩
  | .local _ .vmem, ⟨30, _⟩ => ⟨S5000x128, .f32⟩
  | .local _ .vmem, ⟨31, _⟩ => ⟨S5000x1, .f32⟩
  | .local _ .vmem, ⟨32, _⟩ => ⟨S5000x1, .f32⟩
  | .local _ .vmem, ⟨33, _⟩ => ⟨S1x128, .f32⟩
  | .local _ .vmem, ⟨34, _⟩ => ⟨S5000x128, .f32⟩
  | .local _ .vmem, ⟨35, _⟩ => ⟨S5000x128, .f32⟩
  | .local _ .vmem, ⟨36, _⟩ => ⟨S10000x128, .f32⟩
  | .local _ .vmem, ⟨37, _⟩ => ⟨S10000x128, .f32⟩
  | .local _ .vmem, ⟨38, _⟩ => ⟨S128x128, .f32⟩
  | .local _ .vmem, ⟨39, _⟩ => ⟨S10000x128, .f32⟩
  | .local _ .vmem, ⟨40, _⟩ => ⟨S10000x128, .f32⟩
  | .local _ .vmem, ⟨41, _⟩ => ⟨S5000x128, .f32⟩
  | .local _ .vmem, ⟨42, _⟩ => ⟨S5000x128, .f32⟩
  | .local _ .vmem, ⟨43, _⟩ => ⟨S5000x1, .f32⟩
  | .local _ .vmem, ⟨44, _⟩ => ⟨S5000x1, .f32⟩
  | .local _ .vmem, ⟨45, _⟩ => ⟨S1x128, .f32⟩
  | .local _ .vmem, ⟨46, _⟩ => ⟨S5000x128, .f32⟩
  | .local _ .vmem, ⟨47, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_cst_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst_1 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_c : Ref sig .tc := ⟨.hbm, 25, rfl⟩
abbrev main_v8 : Ref sig .tc := ⟨.hbm, 26, rfl⟩
abbrev main_v9 : Ref sig .tc := ⟨.hbm, 27, rfl⟩
abbrev main_c_2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst_3 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_4 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_6 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_c_7 : Ref sig .tc := ⟨.hbm, 59, rfl⟩
abbrev main_v36 : Ref sig .tc := ⟨.hbm, 60, rfl⟩
abbrev main_v37 : Ref sig .tc := ⟨.hbm, 61, rfl⟩
abbrev main_c_8 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_9 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_c_10 : Ref sig .tc := ⟨.hbm, 76, rfl⟩
abbrev main_v50 : Ref sig .tc := ⟨.hbm, 77, rfl⟩
abbrev main_v51 : Ref sig .tc := ⟨.hbm, 78, rfl⟩
abbrev main_c_11 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_12 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg2_1 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg1_1 : Ref sig .tc := ⟨.vmem, 32, rfl⟩
abbrev cc5_stg2_0 : Ref sig .tc := ⟨.vmem, 33, rfl⟩
abbrev cc5_stg3_0 : Ref sig .tc := ⟨.vmem, 34, rfl⟩
abbrev cc5_stg3_1 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg2_0 : Ref sig .tc := ⟨.vmem, 39, rfl⟩
abbrev cc6_stg2_1 : Ref sig .tc := ⟨.vmem, 40, rfl⟩
abbrev cc7_stg0_0 : Ref sig .tc := ⟨.vmem, 41, rfl⟩
abbrev cc7_stg0_1 : Ref sig .tc := ⟨.vmem, 42, rfl⟩
abbrev cc7_stg1_0 : Ref sig .tc := ⟨.vmem, 43, rfl⟩
abbrev cc7_stg1_1 : Ref sig .tc := ⟨.vmem, 44, rfl⟩
abbrev cc7_stg2_0 : Ref sig .tc := ⟨.vmem, 45, rfl⟩
abbrev cc7_stg3_0 : Ref sig .tc := ⟨.vmem, 46, rfl⟩
abbrev cc7_stg3_1 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem2_1 : DmaSem sig := 28
abbrev cc5_sem0_0 : DmaSem sig := 29
abbrev cc5_sem0_1 : DmaSem sig := 30
abbrev cc5_sem1_0 : DmaSem sig := 31
abbrev cc5_sem1_1 : DmaSem sig := 32
abbrev cc5_sem2_0 : DmaSem sig := 33
abbrev cc5_sem3_0 : DmaSem sig := 34
abbrev cc5_sem3_1 : DmaSem sig := 35
abbrev cc6_sem0_0 : DmaSem sig := 36
abbrev cc6_sem0_1 : DmaSem sig := 37
abbrev cc6_sem1_0 : DmaSem sig := 38
abbrev cc6_sem2_0 : DmaSem sig := 39
abbrev cc6_sem2_1 : DmaSem sig := 40
abbrev cc7_sem0_0 : DmaSem sig := 41
abbrev cc7_sem0_1 : DmaSem sig := 42
abbrev cc7_sem1_0 : DmaSem sig := 43
abbrev cc7_sem1_1 : DmaSem sig := 44
abbrev cc7_sem2_0 : DmaSem sig := 45
abbrev cc7_sem3_0 : DmaSem sig := 46
abbrev cc7_sem3_1 : DmaSem sig := 47

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S10000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x1 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S5000x128 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

class Facts₀ : Prop where
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S100000x128 : S_.BroadcastsInDim S100000x128 (![] : Fin 0 → Fin S100000x128.rank)
  shapeCasts_S100000_S100000x1 : S100000.ShapeCasts S100000x1
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S5000x1_S5000x128 : S5000x1.Broadcasts S5000x128
  broadcasts_S1x128_S5000x128 : S1x128.Broadcasts S5000x128
  shapeCasts_S10000x128_S10000x128 : S10000x128.ShapeCasts S10000x128
  bcast_S100000x128_S1x100000x128_1_2 : S100000x128.BroadcastsInDim S1x100000x128 (![1, 2] : Fin 2 → Fin S1x100000x128.rank)
  concatenates_S1x100000x128_S1x100000x128_S2x100000x128_d0 : Shape.Concatenates [S1x100000x128, S1x100000x128] S2x100000x128 0
  scatter_S100000_S1000000x1_S1000000_n_0_0_1_wf : ScatterDims.WF S100000 S1000000x1 S1000000 [] [0] [0] 1
  dot_S10000x128_S128x128_S10000x128_1_0_0_1_n_n_wf : DotDims.WF S10000x128 S128x128 S10000x128 [1] [0] [0] [1] [] []
  gather_S100000x128_S1000000x1_S1000000x128_1_0_n_n_0_1_1128_wf : GatherDims.WF S100000x128 S1000000x1 S1000000x128 [1] [0] [] [0] [] 1 ![1, 128]
  scatter_S100000x128_S1000000x1_S1000000x128_1_0_0_1_wf : ScatterDims.WF S100000x128 S1000000x1 S1000000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S100000x128.size a
  hwx2_2 : ∀ i : grid2.Coords, EltTy.bits .f32 = 32 ∨ (Rect.block (s := S100000x128) S10000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S100000x128.size a
  hwx3_3 : ∀ i : grid3.Coords, EltTy.bits .f32 = 32 ∨ (Rect.block (s := S100000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S100000x128.size a
  hwx4_0 : ∀ i : grid4.Coords, EltTy.bits .f32 = 32 ∨ (Rect.block (s := S100000x128) S10000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x128.size a ≤ S100000x128.size a
  hwx4_2 : ∀ i : grid4.Coords, EltTy.bits .f32 = 32 ∨ (Rect.block (s := S100000x128) S10000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x1.size a ≤ S100000x1.size a
  hwx5_1 : ∀ i : grid5.Coords, EltTy.bits .f32 = 32 ∨ (Rect.block (s := S100000x1) S5000x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x128.size a ≤ S100000x128.size a
  hwx5_3 : ∀ i : grid5.Coords, EltTy.bits .f32 = 32 ∨ (Rect.block (s := S100000x128) S5000x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x128.size a ≤ S100000x128.size a
  hwx6_0 : ∀ i : grid6.Coords, EltTy.bits .f32 = 32 ∨ (Rect.block (s := S100000x128) S10000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S10000x128.size a ≤ S100000x128.size a
  hwx6_2 : ∀ i : grid6.Coords, EltTy.bits .f32 = 32 ∨ (Rect.block (s := S100000x128) S10000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S100000x128.size a
  hwx7_0 : ∀ i : grid7.Coords, EltTy.bits .f32 = 32 ∨ (Rect.block (s := S100000x128) S5000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x1.size a ≤ S100000x1.size a
  hwx7_1 : ∀ i : grid7.Coords, EltTy.bits .f32 = 32 ∨ (Rect.block (s := S100000x1) S5000x1.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S5000x128.size a ≤ S100000x128.size a
  hwx7_3 : ∀ i : grid7.Coords, EltTy.bits .f32 = 32 ∨ (Rect.block (s := S100000x128) S5000x128.size (cc7_transform_3 i) (hinb7_3 i)).WholeWords (EltTy.packing .f32)

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v17) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v20) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg1) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v21) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v31) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v32) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v33) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v34) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v34) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v35) S10000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v45) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v46) S5000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v47) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v48) S5000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v20) S10000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg8) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v49) S10000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v59) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v60) S5000x1.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v61) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v62) S5000x128.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S1000000 : Shape := ⟨1, ![1000000]⟩
abbrev S_ : Shape := ⟨0, ![]⟩
abbrev S1000000x1 : Shape := ⟨2, ![1000000, 1]⟩
abbrev S1000000x128 : Shape := ⟨2, ![1000000, 128]⟩
abbrev S100000 : Shape := ⟨1, ![100000]⟩
abbrev S100000x1 : Shape := ⟨2, ![100000, 1]⟩
abbrev S1x128 : Shape := ⟨2, ![1, 128]⟩
abbrev S1x100000x128 : Shape := ⟨3, ![1, 100000, 128]⟩
abbrev S2x100000x128 : Shape := ⟨3, ![2, 100000, 128]⟩

abbrev nBuf : Space → Nat
  | .hbm => 145
  | .vmem => 0
  | .smem => 0
  | _ => 0

abbrev hbmTy0_0 (i : Nat) : BufTy := match i % 128 with
  | 0 => ⟨S100000x128, .f32⟩
  | 1 => ⟨S100000x128, .f32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S1000000, .i32⟩
  | 11 => ⟨S1000000, .i32⟩
  | 12 => ⟨S1000000, .i32⟩
  | 13 => ⟨S1000000, .i32⟩
  | 14 => ⟨S100000x128, .f32⟩
  | 15 => ⟨S_, .i32⟩
  | 16 => ⟨S1000000, .i32⟩
  | 17 => ⟨S1000000, .i1⟩
  | 18 => ⟨S_, .i32⟩
  | 19 => ⟨S1000000, .i32⟩
  | 20 => ⟨S1000000, .i32⟩
  | 21 => ⟨S1000000, .i32⟩
  | 22 => ⟨S1000000x1, .i32⟩
  | 23 => ⟨S1000000x128, .f32⟩
  | 24 => ⟨S_, .f32⟩
  | 25 => ⟨S100000x128, .f32⟩
  | 26 => ⟨S1000000x1, .i32⟩
  | 27 => ⟨S100000x128, .f32⟩
  | 28 => ⟨S_, .f32⟩
  | 29 => ⟨S1000000, .f32⟩
  | 30 => ⟨S_, .f32⟩
  | 31 => ⟨S100000, .f32⟩
  | 32 => ⟨S1000000x1, .i32⟩
  | 33 => ⟨S100000, .f32⟩
  | 34 => ⟨S_, .f32⟩
  | 35 => ⟨S100000, .f32⟩
  | 36 => ⟨S100000, .f32⟩
  | 37 => ⟨S100000x1, .f32⟩
  | 38 => ⟨S100000x128, .f32⟩
  | 39 => ⟨S100000x128, .f32⟩
  | 40 => ⟨S1x128, .f32⟩
  | 41 => ⟨S100000x128, .f32⟩
  | 42 => ⟨S100000x128, .f32⟩
  | 43 => ⟨S_, .f32⟩
  | 44 => ⟨S100000x128, .f32⟩
  | 45 => ⟨S100000x128, .f32⟩
  | 46 => ⟨S100000x128, .f32⟩
  | 47 => ⟨S_, .i32⟩
  | 48 => ⟨S1000000, .i32⟩
  | 49 => ⟨S1000000, .i1⟩
  | 50 => ⟨S_, .i32⟩
  | 51 => ⟨S1000000, .i32⟩
  | 52 => ⟨S1000000, .i32⟩
  | 53 => ⟨S1000000, .i32⟩
  | 54 => ⟨S1000000x1, .i32⟩
  | 55 => ⟨S1000000x128, .f32⟩
  | 56 => ⟨S_, .f32⟩
  | 57 => ⟨S100000x128, .f32⟩
  | 58 => ⟨S1000000x1, .i32⟩
  | 59 => ⟨S100000x128, .f32⟩
  | 60 => ⟨S_, .f32⟩
  | 61 => ⟨S1000000, .f32⟩
  | 62 => ⟨S_, .f32⟩
  | 63 => ⟨S100000, .f32⟩
  | 64 => ⟨S1000000x1, .i32⟩
  | 65 => ⟨S100000, .f32⟩
  | 66 => ⟨S_, .f32⟩
  | 67 => ⟨S100000, .f32⟩
  | 68 => ⟨S100000, .f32⟩
  | 69 => ⟨S100000x1, .f32⟩
  | 70 => ⟨S100000x128, .f32⟩
  | 71 => ⟨S100000x128, .f32⟩
  | 72 => ⟨S1x128, .f32⟩
  | 73 => ⟨S100000x128, .f32⟩
  | 74 => ⟨S100000x128, .f32⟩
  | 75 => ⟨S_, .f32⟩
  | 76 => ⟨S100000x128, .f32⟩
  | 77 => ⟨S100000x128, .f32⟩
  | 78 => ⟨S100000x128, .f32⟩
  | 79 => ⟨S_, .i32⟩
  | 80 => ⟨S1000000, .i32⟩
  | 81 => ⟨S1000000, .i1⟩
  | 82 => ⟨S_, .i32⟩
  | 83 => ⟨S1000000, .i32⟩
  | 84 => ⟨S1000000, .i32⟩
  | 85 => ⟨S1000000, .i32⟩
  | 86 => ⟨S1000000x1, .i32⟩
  | 87 => ⟨S1000000x128, .f32⟩
  | 88 => ⟨S_, .f32⟩
  | 89 => ⟨S100000x128, .f32⟩
  | 90 => ⟨S1000000x1, .i32⟩
  | 91 => ⟨S100000x128, .f32⟩
  | 92 => ⟨S_, .f32⟩
  | 93 => ⟨S1000000, .f32⟩
  | 94 => ⟨S_, .f32⟩
  | 95 => ⟨S100000, .f32⟩
  | 96 => ⟨S1000000x1, .i32⟩
  | 97 => ⟨S100000, .f32⟩
  | 98 => ⟨S_, .f32⟩
  | 99 => ⟨S100000, .f32⟩
  | 100 => ⟨S100000, .f32⟩
  | 101 => ⟨S100000x1, .f32⟩
  | 102 => ⟨S100000x128, .f32⟩
  | 103 => ⟨S100000x128, .f32⟩
  | 104 => ⟨S1x128, .f32⟩
  | 105 => ⟨S100000x128, .f32⟩
  | 106 => ⟨S100000x128, .f32⟩
  | 107 => ⟨S_, .f32⟩
  | 108 => ⟨S100000x128, .f32⟩
  | 109 => ⟨S100000x128, .f32⟩
  | 110 => ⟨S100000x128, .f32⟩
  | 111 => ⟨S_, .i32⟩
  | 112 => ⟨S1000000, .i32⟩
  | 113 => ⟨S1000000, .i1⟩
  | 114 => ⟨S_, .i32⟩
  | 115 => ⟨S1000000, .i32⟩
  | 116 => ⟨S1000000, .i32⟩
  | 117 => ⟨S1000000, .i32⟩
  | 118 => ⟨S1000000x1, .i32⟩
  | 119 => ⟨S1000000x128, .f32⟩
  | 120 => ⟨S_, .f32⟩
  | 121 => ⟨S100000x128, .f32⟩
  | 122 => ⟨S1000000x1, .i32⟩
  | 123 => ⟨S100000x128, .f32⟩
  | 124 => ⟨S_, .f32⟩
  | 125 => ⟨S1000000, .f32⟩
  | 126 => ⟨S_, .f32⟩
  | 127 => ⟨S100000, .f32⟩
  | _ => ⟨S100000x128, .f32⟩

abbrev hbmTy0_1 (i : Nat) : BufTy := match i % 128 with
  | 0 => ⟨S1000000x1, .i32⟩
  | 1 => ⟨S100000, .f32⟩
  | 2 => ⟨S_, .f32⟩
  | 3 => ⟨S100000, .f32⟩
  | 4 => ⟨S100000, .f32⟩
  | 5 => ⟨S100000x1, .f32⟩
  | 6 => ⟨S100000x128, .f32⟩
  | 7 => ⟨S100000x128, .f32⟩
  | 8 => ⟨S1x128, .f32⟩
  | 9 => ⟨S100000x128, .f32⟩
  | 10 => ⟨S100000x128, .f32⟩
  | 11 => ⟨S_, .f32⟩
  | 12 => ⟨S100000x128, .f32⟩
  | 13 => ⟨S100000x128, .f32⟩
  | 14 => ⟨S1x100000x128, .f32⟩
  | 15 => ⟨S1x100000x128, .f32⟩
  | 16 => ⟨S2x100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_c : Ref sig .tc := ⟨.hbm, 15, rfl⟩
abbrev main_v1 : Ref sig .tc := ⟨.hbm, 16, rfl⟩
abbrev main_v2 : Ref sig .tc := ⟨.hbm, 17, rfl⟩
abbrev main_c_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_cst_2 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst_3 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_call0_cst : Ref sig .tc := ⟨.hbm, 43, rfl⟩
abbrev main_call0_v0 : Ref sig .tc := ⟨.hbm, 44, rfl⟩
abbrev main_v23 : Ref sig .tc := ⟨.hbm, 45, rfl⟩
abbrev main_v24 : Ref sig .tc := ⟨.hbm, 46, rfl⟩
abbrev main_c_4 : Ref sig .tc := ⟨.hbm, 47, rfl⟩
abbrev main_v25 : Ref sig .tc := ⟨.hbm, 48, rfl⟩
abbrev main_v26 : Ref sig .tc := ⟨.hbm, 49, rfl⟩
abbrev main_c_5 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_6 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_7 : Ref sig .tc := ⟨.hbm, 60, rfl⟩
abbrev main_v35 : Ref sig .tc := ⟨.hbm, 61, rfl⟩
abbrev main_cst_8 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_9 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_call1_cst : Ref sig .tc := ⟨.hbm, 75, rfl⟩
abbrev main_call1_v0 : Ref sig .tc := ⟨.hbm, 76, rfl⟩
abbrev main_v47 : Ref sig .tc := ⟨.hbm, 77, rfl⟩
abbrev main_v48 : Ref sig .tc := ⟨.hbm, 78, rfl⟩
abbrev main_c_10 : Ref sig .tc := ⟨.hbm, 79, rfl⟩
abbrev main_v49 : Ref sig .tc := ⟨.hbm, 80, rfl⟩
abbrev main_v50 : Ref sig .tc := ⟨.hbm, 81, rfl⟩
abbrev main_c_11 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_cst_12 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_cst_13 : Ref sig .tc := ⟨.hbm, 92, rfl⟩
abbrev main_v59 : Ref sig .tc := ⟨.hbm, 93, rfl⟩
abbrev main_cst_14 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_cst_15 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_call2_cst : Ref sig .tc := ⟨.hbm, 107, rfl⟩
abbrev main_call2_v0 : Ref sig .tc := ⟨.hbm, 108, rfl⟩
abbrev main_v71 : Ref sig .tc := ⟨.hbm, 109, rfl⟩
abbrev main_v72 : Ref sig .tc := ⟨.hbm, 110, rfl⟩
abbrev main_c_16 : Ref sig .tc := ⟨.hbm, 111, rfl⟩
abbrev main_v73 : Ref sig .tc := ⟨.hbm, 112, rfl⟩
abbrev main_v74 : Ref sig .tc := ⟨.hbm, 113, rfl⟩
abbrev main_c_17 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_cst_18 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_cst_19 : Ref sig .tc := ⟨.hbm, 124, rfl⟩
abbrev main_v83 : Ref sig .tc := ⟨.hbm, 125, rfl⟩
abbrev main_cst_20 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_cst_21 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_call3_cst : Ref sig .tc := ⟨.hbm, 139, rfl⟩
abbrev main_call3_v0 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S100000x128_S1x100000x128_1_2 : S100000x128.BroadcastsInDim S1x100000x128 (![1, 2] : Fin 2 → Fin S1x100000x128.rank)
  concatenates_S1x100000x128_S1x100000x128_S2x100000x128_d0 : Shape.Concatenates [S1x100000x128, S1x100000x128] S2x100000x128 0
  dot_S100000x128_S128x128_S100000x128_1_0_0_1_n_n_wf : DotDims.WF S100000x128 S128x128 S100000x128 [1] [0] [0] [1] [] []
  gather_S100000x128_S1000000x1_S1000000x128_1_0_n_n_0_1_1128_wf : GatherDims.WF S100000x128 S1000000x1 S1000000x128 [1] [0] [] [0] [] 1 ![1, 128]
  scatter_S100000x128_S1000000x1_S1000000x128_1_0_0_1_wf : ScatterDims.WF S100000x128 S1000000x1 S1000000x128 [1] [0] [0] 1
  scatter_S100000_S1000000x1_S1000000_n_0_0_1_wf : ScatterDims.WF S100000 S1000000x1 S1000000 [] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf

class Facts : Prop extends Facts₀ where

variable [Facts]
-- ==== Proof.Spec.lean ====
/-
  The function both programs compute, stated once over whole arrays.

  One graph convolution takes node features `h : [N, 128]`, a weight `W : [128, 128]`, a bias `b : [128]`
  and an edge list `(src, dst) : [E]`. It projects every node, `P = h · W`; sends along each edge `e` the
  projected row of its source, `P[src e]` (a negative source counted from the end); adds the messages that arrive
  at each destination, `A[i] = Σ_{dst e = i} P[src e]`; divides row `i` by the larger of its in-degree and one;
  adds the bias; and keeps the positive part:

      conv h W b src dst = max (A / max (deg dst) 1 + b) 0.

  The network is two such layers over a bipartite graph (users and items, one edge type each way), the second
  layer of each side reading the first layer of the other; the result stacks the two final feature arrays.

  The gather, the two scatter-adds and the index arithmetic are kept as the host operations they are: both
  programs apply the same ones to the same arguments, so nothing here has to open them.
-/
import proofs.«180740_j23252952940857_1_alg».proof.Proof.Gen.ReferenceIdeal
import Idealize.ShloMosaic.PureOps.Ideal

noncomputable section

namespace Cert.Gnn

open Idealize.ShloMosaic Cert.ReferenceIdeal Cert.ReferenceIdeal.Gen

/-- Whole-array contents of a float buffer of shape `s`, at the exact instance. -/
abbrev Arr (s : Shape) := FVec Ideal s .f32
/-- Whole-array contents of an index buffer of shape `s`. -/
abbrev IArr (s : Shape) := IVec s 32

/-- The in-degree of every node: one added at `dst e` for every edge `e`, from zero. -/
def degree (dst : IArr S1000000) : Arr S100000 :=
  Host.scatterAdd scatter_S100000_S1000000x1_S1000000_n_0_0_1
    (broadcastInDim S100000 ![] bcast_S_S100000 (constant (F := Ideal) S_ .f32 0x00000000#32))
    (broadcastInDim S1000000x1 ![0] bcast_S1000000_S1000000x1_0 dst)
    (broadcastInDim S1000000 ![] bcast_S_S1000000 (constant (F := Ideal) S_ .f32 0x3F800000#32))

/-- The edge sources as row numbers: a negative one counted from the end (`src + N`), as a column `[E, 1]`. -/
def sourceRows (src : IArr S1000000) : IArr S1000000x1 :=
  broadcastInDim S1000000x1 ![0] bcast_S1000000_S1000000x1_0
    (select (cmpi .slt src (broadcastInDim S1000000 ![] bcast_S_S1000000 (constantI S_ 32 0#32)))
      (addi src (broadcastInDim S1000000 ![] bcast_S_S1000000 (constantI S_ 32 100000#32))) src)

/-- The messages summed at their destinations: row `src e` of `P` added into row `dst e`, from zero. -/
def aggregate (P : Arr S100000x128) (src dst : IArr S1000000) : Arr S100000x128 :=
  Host.scatterAdd scatter_S100000x128_S1000000x1_S1000000x128_1_0_0_1
    (broadcastInDim S100000x128 ![] bcast_S_S100000x128 (constant (F := Ideal) S_ .f32 0x00000000#32))
    (broadcastInDim S1000000x1 ![0] bcast_S1000000_S1000000x1_0 dst)
    (Host.gather gather_S100000x128_S1000000x1_S1000000x128_1_0_n_n_0_1_1128 P (sourceRows src))

/-- Row `i` of the sums divided by `max (deg i) 1`, the bias added, the positive part kept. -/
def finish (A : Arr S100000x128) (deg : Arr S100000) (b : Arr S128) : Arr S100000x128 :=
  maximumf
    (addf
      (Host.divf A
        (broadcastInDim S100000x128 ![0, 1] bcast_S100000x1_S100000x128_0_1
          (broadcastInDim S100000x1 ![0] bcast_S100000_S100000x1_0
            (maximumf deg (broadcastInDim S100000 ![] bcast_S_S100000 (constant (F := Ideal) S_ .f32 0x3F800000#32))))))
      (broadcastInDim S100000x128 ![0, 1] bcast_S1x128_S100000x128_0_1
        (broadcastInDim S1x128 ![1] bcast_S128_S1x128_1 b)))
    (broadcastInDim S100000x128 ![] bcast_S_S100000x128 (constant (F := Ideal) S_ .f32 0x00000000#32))

/-- The projection of every node: `h · W`, each entry the sum over the 128 features. -/
def project (h : Arr S100000x128) (W : Arr S128x128) : Arr S100000x128 :=
  Host.dotGeneral dot_S100000x128_S128x128_S100000x128_1_0_0_1_n_n none h W

/-- One graph convolution. -/
def conv (h : Arr S100000x128) (W : Arr S128x128) (b : Arr S128) (src dst : IArr S1000000) : Arr S100000x128 :=
  finish (aggregate (project h W) src dst) (degree dst) b

/-- Two feature arrays stacked along a new leading axis. -/
def stack (u v : Arr S100000x128) : Arr S2x100000x128 :=
  concatenate S2x100000x128 0
    [⟨S1x100000x128, broadcastInDim S1x100000x128 ![1, 2] bcast_S100000x128_S1x100000x128_1_2 u⟩,
     ⟨S1x100000x128, broadcastInDim S1x100000x128 ![1, 2] bcast_S100000x128_S1x100000x128_1_2 v⟩]
    concatenates_S1x100000x128_S1x100000x128_S2x100000x128_d0

/-- The two-layer network: users' and items' second-layer features, stacked. -/
def network (xU xI : Arr S100000x128) (W1ui : Arr S128x128) (b1ui : Arr S128) (W1iu : Arr S128x128) (b1iu : Arr S128)
    (W2ui : Arr S128x128) (b2ui : Arr S128) (W2iu : Arr S128x128) (b2iu : Arr S128)
    (uiSrc uiDst iuSrc iuDst : IArr S1000000) : Arr S2x100000x128 :=
  stack
    (conv (conv xU W1ui b1ui uiSrc uiDst) W2iu b2iu iuSrc iuDst)
    (conv (conv xI W1iu b1iu iuSrc iuDst) W2ui b2ui uiSrc uiDst)

end Cert.Gnn

end
-- ==== Proof.RefIsSpec.lean ====
/-
  The reference's result is the network of its arguments.

  The reference runs the four convolutions one host operation after another, so the term its run ends at is
  already the composition `Cert.Gnn.network` names: unfolding both sides leaves the same tree of operations.
-/
import proofs.«180740_j23252952940857_1_alg».proof.Proof.Gen.ReferenceIdeal.Run
import proofs.«180740_j23252952940857_1_alg».proof.Proof.Spec

noncomputable section

namespace Cert.Gnn

open Idealize.ShloMosaic Idealize.ShloMosaic.TcCoe Idealize.SL.Sem Cert.ReferenceIdeal

/-- What the reference's run leaves in its result buffer is `network` of the fourteen argument arrays. -/
theorem reference_eq (m : (ℓ : Loc nD τ sig) → Buf (Elt Ideal) ℓ) (c : Dev nD) :
    Cert.ReferenceIdeal.Value.res_main_v98 (F := Ideal) m c
      = network (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) (m ((c.tc : Thread nD τ).loc main_arg11))
          (m ((c.tc : Thread nD τ).loc main_arg12)) (m ((c.tc : Thread nD τ).loc main_arg13)) := by
  unfold Cert.ReferenceIdeal.Value.res_main_v98 network stack conv finish aggregate sourceRows project degree
  rfl

end Cert.Gnn

end
-- ==== Proof.KernelRun.lean ====
/-
  The kernel program's run, with its result named.

  @main is fourteen segments: stretches of host operations and the eight kernel regions between them. Every weakly
  fair execution runs them in order and terminates, and what each of the TensorCore's buffers holds at every boundary
  is a fold from the launch memory: a host stretch applies its operations, a region replaces its output array by
  what its write-backs leave and keeps every other buffer. So the final state has the result buffer at the last
  boundary's contents, and the arguments as launched.
-/
import proofs.«180740_j23252952940857_1_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the contents the
    fold through the segments ends at, and every argument array as launched. -/
theorem run : θ_run defs (onTc (τ := τ) (main (F := F))) ⟨m, fun _ => 0, ρ⟩ (fun r => ∀ c : Dev nD,
      r.2.mem ((c.tc : Thread nD τ).loc main_v65) = W14 m ρ c (Proc.devRef .tc main_v65)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v65 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c),
       (h c _ (mem_uc main_arg11 (by decide))).trans (W14_main_arg11 m ρ c),
       (h c _ (mem_uc main_arg12 (by decide))).trans (W14_main_arg12 m ρ c),
       (h c _ (mem_uc main_arg13 (by decide))).trans (W14_main_arg13 m ρ c)⟩)

end Cert.KernelIdeal.RunValue

end
-- ==== Proof.TraceKept.lean ====
/-
  Buffers that stay as they were.

  Between two boundaries of @main a buffer changes only if a host operation of the stretch names it as its result
  or a region has it as an output array. The arguments are written by nothing; a degree vector, once computed, and a
  layer's output, once written, are read again later and written by nothing in between. Each lemma walks one such
  buffer back, boundary by boundary, to where it was last written (or to the launch memory).
-/
import proofs.«180740_j23252952940857_1_alg».proof.Proof.Gen.KernelIdeal.Frame
import Idealize.ShloMosaic.PureOps.Ideal

set_option maxRecDepth 16384

noncomputable section

namespace Cert.KernelIdeal.Trace

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- No operation of a host stretch writes the buffer: each operation's result buffer is another one. -/
local macro "host_keeps" : tactic => `(tactic| (
  refine StableHlo.after_of_forall_not_mem (b := _) _ _ (List.forall_iff_forall_mem.mp ?_)
  simp only [hostOps0, hostOps1, hostOps3, hostOps5, hostOps7, hostOps8, List.Forall, StableHlo.nullary_writes, StableHlo.unary_writes,
    StableHlo.binary_writes, StableHlo.ternary_writes, StableHlo.quaternary_writes, StableHlo.reshape_writes,
    StableHlo.binaryIndexed_writes, Finset.mem_singleton]
  repeat' apply And.intro
  all_goals exact StableHlo.devRef_ne_of_ne (by decide)))

/-- `main_arg0` at boundary 1 is as launched: nothing in between writes it. -/
theorem kept_main_arg0_1 (c : Dev nD) : W1 m ρ c (Proc.devRef .tc main_arg0) = m ((c : Thread nD τ).loc main_arg0) :=
  calc W1 m ρ c (Proc.devRef .tc main_arg0)
    _ = W0 m ρ c (Proc.devRef .tc main_arg0) := by host_keeps
    _ = m ((c : Thread nD τ).loc main_arg0) := rfl

/-- `main_arg2` at boundary 1 is as launched: nothing in between writes it. -/
theorem kept_main_arg2_1 (c : Dev nD) : W1 m ρ c (Proc.devRef .tc main_arg2) = m ((c : Thread nD τ).loc main_arg2) :=
  calc W1 m ρ c (Proc.devRef .tc main_arg2)
    _ = W0 m ρ c (Proc.devRef .tc main_arg2) := by host_keeps
    _ = m ((c : Thread nD τ).loc main_arg2) := rfl

/-- `main_arg10` at boundary 2 is as launched: nothing in between writes it. -/
theorem kept_main_arg10_2 (c : Dev nD) : W2 m ρ c (Proc.devRef .tc main_arg10) = m ((c : Thread nD τ).loc main_arg10) :=
  calc W2 m ρ c (Proc.devRef .tc main_arg10)
    _ = W1 m ρ c (Proc.devRef .tc main_arg10) := W2_of_ne m ρ c main_arg10 (by decide)
    _ = W0 m ρ c (Proc.devRef .tc main_arg10) := by host_keeps
    _ = m ((c : Thread nD τ).loc main_arg10) := rfl

/-- `main_arg11` at boundary 2 is as launched: nothing in between writes it. -/
theorem kept_main_arg11_2 (c : Dev nD) : W2 m ρ c (Proc.devRef .tc main_arg11) = m ((c : Thread nD τ).loc main_arg11) :=
  calc W2 m ρ c (Proc.devRef .tc main_arg11)
    _ = W1 m ρ c (Proc.devRef .tc main_arg11) := W2_of_ne m ρ c main_arg11 (by decide)
    _ = W0 m ρ c (Proc.devRef .tc main_arg11) := by host_keeps
    _ = m ((c : Thread nD τ).loc main_arg11) := rfl

/-- `main_arg3` at boundary 2 is as launched: nothing in between writes it. -/
theorem kept_main_arg3_2 (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := by host_keeps
    _ = m ((c : Thread nD τ).loc main_arg3) := rfl

/-- `main_v3` at boundary 2 is what it held at boundary 1: nothing in between writes it. -/
theorem kept_main_v3_2 (c : Dev nD) : W2 m ρ c (Proc.devRef .tc main_v3) = W1 m ρ c (Proc.devRef .tc main_v3) :=
  calc W2 m ρ c (Proc.devRef .tc main_v3)
    _ = W1 m ρ c (Proc.devRef .tc main_v3) := W2_of_ne m ρ c main_v3 (by decide)

/-- `main_arg1` at boundary 4 is as launched: nothing in between writes it. -/
theorem kept_main_arg1_4 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := by host_keeps
    _ = W1 m ρ c (Proc.devRef .tc main_arg1) := W2_of_ne m ρ c main_arg1 (by decide)
    _ = W0 m ρ c (Proc.devRef .tc main_arg1) := by host_keeps
    _ = m ((c : Thread nD τ).loc main_arg1) := rfl

/-- `main_arg4` at boundary 4 is as launched: nothing in between writes it. -/
theorem kept_main_arg4_4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := by host_keeps
    _ = W1 m ρ c (Proc.devRef .tc main_arg4) := W2_of_ne m ρ c main_arg4 (by decide)
    _ = W0 m ρ c (Proc.devRef .tc main_arg4) := by host_keeps
    _ = m ((c : Thread nD τ).loc main_arg4) := rfl

/-- `main_arg12` at boundary 5 is as launched: nothing in between writes it. -/
theorem kept_main_arg12_5 (c : Dev nD) : W5 m ρ c (Proc.devRef .tc main_arg12) = m ((c : Thread nD τ).loc main_arg12) :=
  calc W5 m ρ c (Proc.devRef .tc main_arg12)
    _ = W4 m ρ c (Proc.devRef .tc main_arg12) := W5_of_ne m ρ c main_arg12 (by decide)
    _ = W3 m ρ c (Proc.devRef .tc main_arg12) := W4_of_ne m ρ c main_arg12 (by decide)
    _ = W2 m ρ c (Proc.devRef .tc main_arg12) := by host_keeps
    _ = W1 m ρ c (Proc.devRef .tc main_arg12) := W2_of_ne m ρ c main_arg12 (by decide)
    _ = W0 m ρ c (Proc.devRef .tc main_arg12) := by host_keeps
    _ = m ((c : Thread nD τ).loc main_arg12) := rfl

/-- `main_arg13` at boundary 5 is as launched: nothing in between writes it. -/
theorem kept_main_arg13_5 (c : Dev nD) : W5 m ρ c (Proc.devRef .tc main_arg13) = m ((c : Thread nD τ).loc main_arg13) :=
  calc W5 m ρ c (Proc.devRef .tc main_arg13)
    _ = W4 m ρ c (Proc.devRef .tc main_arg13) := W5_of_ne m ρ c main_arg13 (by decide)
    _ = W3 m ρ c (Proc.devRef .tc main_arg13) := W4_of_ne m ρ c main_arg13 (by decide)
    _ = W2 m ρ c (Proc.devRef .tc main_arg13) := by host_keeps
    _ = W1 m ρ c (Proc.devRef .tc main_arg13) := W2_of_ne m ρ c main_arg13 (by decide)
    _ = W0 m ρ c (Proc.devRef .tc main_arg13) := by host_keeps
    _ = m ((c : Thread nD τ).loc main_arg13) := rfl

/-- `main_arg5` at boundary 5 is as launched: nothing in between writes it. -/
theorem kept_main_arg5_5 (c : Dev nD) : W5 m ρ c (Proc.devRef .tc main_arg5) = m ((c : Thread nD τ).loc main_arg5) :=
  calc W5 m ρ c (Proc.devRef .tc main_arg5)
    _ = W4 m ρ c (Proc.devRef .tc main_arg5) := W5_of_ne m ρ c main_arg5 (by decide)
    _ = W3 m ρ c (Proc.devRef .tc main_arg5) := W4_of_ne m ρ c main_arg5 (by decide)
    _ = W2 m ρ c (Proc.devRef .tc main_arg5) := by host_keeps
    _ = W1 m ρ c (Proc.devRef .tc main_arg5) := W2_of_ne m ρ c main_arg5 (by decide)
    _ = W0 m ρ c (Proc.devRef .tc main_arg5) := by host_keeps
    _ = m ((c : Thread nD τ).loc main_arg5) := rfl

/-- `main_v6` at boundary 5 is what it held at boundary 1: nothing in between writes it. -/
theorem kept_main_v6_5 (c : Dev nD) : W5 m ρ c (Proc.devRef .tc main_v6) = W1 m ρ c (Proc.devRef .tc main_v6) :=
  calc W5 m ρ c (Proc.devRef .tc main_v6)
    _ = W4 m ρ c (Proc.devRef .tc main_v6) := W5_of_ne m ρ c main_v6 (by decide)
    _ = W3 m ρ c (Proc.devRef .tc main_v6) := W4_of_ne m ρ c main_v6 (by decide)
    _ = W2 m ρ c (Proc.devRef .tc main_v6) := by host_keeps
    _ = W1 m ρ c (Proc.devRef .tc main_v6) := W2_of_ne m ρ c main_v6 (by decide)

/-- `main_arg6` at boundary 7 is as launched: nothing in between writes it. -/
theorem kept_main_arg6_7 (c : Dev nD) : W7 m ρ c (Proc.devRef .tc main_arg6) = m ((c : Thread nD τ).loc main_arg6) :=
  calc W7 m ρ c (Proc.devRef .tc main_arg6)
    _ = W6 m ρ c (Proc.devRef .tc main_arg6) := W7_of_ne m ρ c main_arg6 (by decide)
    _ = W5 m ρ c (Proc.devRef .tc main_arg6) := by host_keeps
    _ = W4 m ρ c (Proc.devRef .tc main_arg6) := W5_of_ne m ρ c main_arg6 (by decide)
    _ = W3 m ρ c (Proc.devRef .tc main_arg6) := W4_of_ne m ρ c main_arg6 (by decide)
    _ = W2 m ρ c (Proc.devRef .tc main_arg6) := by host_keeps
    _ = W1 m ρ c (Proc.devRef .tc main_arg6) := W2_of_ne m ρ c main_arg6 (by decide)
    _ = W0 m ρ c (Proc.devRef .tc main_arg6) := by host_keeps
    _ = m ((c : Thread nD τ).loc main_arg6) := rfl

/-- `main_arg10` at boundary 8 is as launched: nothing in between writes it. -/
theorem kept_main_arg10_8 (c : Dev nD) : W8 m ρ c (Proc.devRef .tc main_arg10) = m ((c : Thread nD τ).loc main_arg10) :=
  calc W8 m ρ c (Proc.devRef .tc main_arg10)
    _ = W7 m ρ c (Proc.devRef .tc main_arg10) := W8_of_ne m ρ c main_arg10 (by decide)
    _ = W6 m ρ c (Proc.devRef .tc main_arg10) := W7_of_ne m ρ c main_arg10 (by decide)
    _ = W5 m ρ c (Proc.devRef .tc main_arg10) := by host_keeps
    _ = W4 m ρ c (Proc.devRef .tc main_arg10) := W5_of_ne m ρ c main_arg10 (by decide)
    _ = W3 m ρ c (Proc.devRef .tc main_arg10) := W4_of_ne m ρ c main_arg10 (by decide)
    _ = W2 m ρ c (Proc.devRef .tc main_arg10) := by host_keeps
    _ = W1 m ρ c (Proc.devRef .tc main_arg10) := W2_of_ne m ρ c main_arg10 (by decide)
    _ = W0 m ρ c (Proc.devRef .tc main_arg10) := by host_keeps
    _ = m ((c : Thread nD τ).loc main_arg10) := rfl

/-- `main_arg11` at boundary 8 is as launched: nothing in between writes it. -/
theorem kept_main_arg11_8 (c : Dev nD) : W8 m ρ c (Proc.devRef .tc main_arg11) = m ((c : Thread nD τ).loc main_arg11) :=
  calc W8 m ρ c (Proc.devRef .tc main_arg11)
    _ = W7 m ρ c (Proc.devRef .tc main_arg11) := W8_of_ne m ρ c main_arg11 (by decide)
    _ = W6 m ρ c (Proc.devRef .tc main_arg11) := W7_of_ne m ρ c main_arg11 (by decide)
    _ = W5 m ρ c (Proc.devRef .tc main_arg11) := by host_keeps
    _ = W4 m ρ c (Proc.devRef .tc main_arg11) := W5_of_ne m ρ c main_arg11 (by decide)
    _ = W3 m ρ c (Proc.devRef .tc main_arg11) := W4_of_ne m ρ c main_arg11 (by decide)
    _ = W2 m ρ c (Proc.devRef .tc main_arg11) := by host_keeps
    _ = W1 m ρ c (Proc.devRef .tc main_arg11) := W2_of_ne m ρ c main_arg11 (by decide)
    _ = W0 m ρ c (Proc.devRef .tc main_arg11) := by host_keeps
    _ = m ((c : Thread nD τ).loc main_arg11) := rfl

/-- `main_arg7` at boundary 8 is as launched: nothing in between writes it. -/
theorem kept_main_arg7_8 (c : Dev nD) : W8 m ρ c (Proc.devRef .tc main_arg7) = m ((c : Thread nD τ).loc main_arg7) :=
  calc W8 m ρ c (Proc.devRef .tc main_arg7)
    _ = W7 m ρ c (Proc.devRef .tc main_arg7) := W8_of_ne m ρ c main_arg7 (by decide)
    _ = W6 m ρ c (Proc.devRef .tc main_arg7) := W7_of_ne m ρ c main_arg7 (by decide)
    _ = W5 m ρ c (Proc.devRef .tc main_arg7) := by host_keeps
    _ = W4 m ρ c (Proc.devRef .tc main_arg7) := W5_of_ne m ρ c main_arg7 (by decide)
    _ = W3 m ρ c (Proc.devRef .tc main_arg7) := W4_of_ne m ρ c main_arg7 (by decide)
    _ = W2 m ρ c (Proc.devRef .tc main_arg7) := by host_keeps
    _ = W1 m ρ c (Proc.devRef .tc main_arg7) := W2_of_ne m ρ c main_arg7 (by decide)
    _ = W0 m ρ c (Proc.devRef .tc main_arg7) := by host_keeps
    _ = m ((c : Thread nD τ).loc main_arg7) := rfl

/-- `main_v3` at boundary 8 is what it held at boundary 1: nothing in between writes it. -/
theorem kept_main_v3_8 (c : Dev nD) : W8 m ρ c (Proc.devRef .tc main_v3) = W1 m ρ c (Proc.devRef .tc main_v3) :=
  calc W8 m ρ c (Proc.devRef .tc main_v3)
    _ = W7 m ρ c (Proc.devRef .tc main_v3) := W8_of_ne m ρ c main_v3 (by decide)
    _ = W6 m ρ c (Proc.devRef .tc main_v3) := W7_of_ne m ρ c main_v3 (by decide)
    _ = W5 m ρ c (Proc.devRef .tc main_v3) := by host_keeps
    _ = W4 m ρ c (Proc.devRef .tc main_v3) := W5_of_ne m ρ c main_v3 (by decide)
    _ = W3 m ρ c (Proc.devRef .tc main_v3) := W4_of_ne m ρ c main_v3 (by decide)
    _ = W2 m ρ c (Proc.devRef .tc main_v3) := by host_keeps
    _ = W1 m ρ c (Proc.devRef .tc main_v3) := W2_of_ne m ρ c main_v3 (by decide)

/-- `main_v20` at boundary 10 is what it held at boundary 4: nothing in between writes it. -/
theorem kept_main_v20_10 (c : Dev nD) : W10 m ρ c (Proc.devRef .tc main_v20) = W4 m ρ c (Proc.devRef .tc main_v20) :=
  calc W10 m ρ c (Proc.devRef .tc main_v20)
    _ = W9 m ρ c (Proc.devRef .tc main_v20) := W10_of_ne m ρ c main_v20 (by decide)
    _ = W8 m ρ c (Proc.devRef .tc main_v20) := by host_keeps
    _ = W7 m ρ c (Proc.devRef .tc main_v20) := W8_of_ne m ρ c main_v20 (by decide)
    _ = W6 m ρ c (Proc.devRef .tc main_v20) := W7_of_ne m ρ c main_v20 (by decide)
    _ = W5 m ρ c (Proc.devRef .tc main_v20) := by host_keeps
    _ = W4 m ρ c (Proc.devRef .tc main_v20) := W5_of_ne m ρ c main_v20 (by decide)

/-- `main_arg8` at boundary 10 is as launched: nothing in between writes it. -/
theorem kept_main_arg8_10 (c : Dev nD) : W10 m ρ c (Proc.devRef .tc main_arg8) = m ((c : Thread nD τ).loc main_arg8) :=
  calc W10 m ρ c (Proc.devRef .tc main_arg8)
    _ = W9 m ρ c (Proc.devRef .tc main_arg8) := W10_of_ne m ρ c main_arg8 (by decide)
    _ = W8 m ρ c (Proc.devRef .tc main_arg8) := by host_keeps
    _ = W7 m ρ c (Proc.devRef .tc main_arg8) := W8_of_ne m ρ c main_arg8 (by decide)
    _ = W6 m ρ c (Proc.devRef .tc main_arg8) := W7_of_ne m ρ c main_arg8 (by decide)
    _ = W5 m ρ c (Proc.devRef .tc main_arg8) := by host_keeps
    _ = W4 m ρ c (Proc.devRef .tc main_arg8) := W5_of_ne m ρ c main_arg8 (by decide)
    _ = W3 m ρ c (Proc.devRef .tc main_arg8) := W4_of_ne m ρ c main_arg8 (by decide)
    _ = W2 m ρ c (Proc.devRef .tc main_arg8) := by host_keeps
    _ = W1 m ρ c (Proc.devRef .tc main_arg8) := W2_of_ne m ρ c main_arg8 (by decide)
    _ = W0 m ρ c (Proc.devRef .tc main_arg8) := by host_keeps
    _ = m ((c : Thread nD τ).loc main_arg8) := rfl

/-- `main_arg12` at boundary 11 is as launched: nothing in between writes it. -/
theorem kept_main_arg12_11 (c : Dev nD) : W11 m ρ c (Proc.devRef .tc main_arg12) = m ((c : Thread nD τ).loc main_arg12) :=
  calc W11 m ρ c (Proc.devRef .tc main_arg12)
    _ = W10 m ρ c (Proc.devRef .tc main_arg12) := W11_of_ne m ρ c main_arg12 (by decide)
    _ = W9 m ρ c (Proc.devRef .tc main_arg12) := W10_of_ne m ρ c main_arg12 (by decide)
    _ = W8 m ρ c (Proc.devRef .tc main_arg12) := by host_keeps
    _ = W7 m ρ c (Proc.devRef .tc main_arg12) := W8_of_ne m ρ c main_arg12 (by decide)
    _ = W6 m ρ c (Proc.devRef .tc main_arg12) := W7_of_ne m ρ c main_arg12 (by decide)
    _ = W5 m ρ c (Proc.devRef .tc main_arg12) := by host_keeps
    _ = W4 m ρ c (Proc.devRef .tc main_arg12) := W5_of_ne m ρ c main_arg12 (by decide)
    _ = W3 m ρ c (Proc.devRef .tc main_arg12) := W4_of_ne m ρ c main_arg12 (by decide)
    _ = W2 m ρ c (Proc.devRef .tc main_arg12) := by host_keeps
    _ = W1 m ρ c (Proc.devRef .tc main_arg12) := W2_of_ne m ρ c main_arg12 (by decide)
    _ = W0 m ρ c (Proc.devRef .tc main_arg12) := by host_keeps
    _ = m ((c : Thread nD τ).loc main_arg12) := rfl

/-- `main_arg13` at boundary 11 is as launched: nothing in between writes it. -/
theorem kept_main_arg13_11 (c : Dev nD) : W11 m ρ c (Proc.devRef .tc main_arg13) = m ((c : Thread nD τ).loc main_arg13) :=
  calc W11 m ρ c (Proc.devRef .tc main_arg13)
    _ = W10 m ρ c (Proc.devRef .tc main_arg13) := W11_of_ne m ρ c main_arg13 (by decide)
    _ = W9 m ρ c (Proc.devRef .tc main_arg13) := W10_of_ne m ρ c main_arg13 (by decide)
    _ = W8 m ρ c (Proc.devRef .tc main_arg13) := by host_keeps
    _ = W7 m ρ c (Proc.devRef .tc main_arg13) := W8_of_ne m ρ c main_arg13 (by decide)
    _ = W6 m ρ c (Proc.devRef .tc main_arg13) := W7_of_ne m ρ c main_arg13 (by decide)
    _ = W5 m ρ c (Proc.devRef .tc main_arg13) := by host_keeps
    _ = W4 m ρ c (Proc.devRef .tc main_arg13) := W5_of_ne m ρ c main_arg13 (by decide)
    _ = W3 m ρ c (Proc.devRef .tc main_arg13) := W4_of_ne m ρ c main_arg13 (by decide)
    _ = W2 m ρ c (Proc.devRef .tc main_arg13) := by host_keeps
    _ = W1 m ρ c (Proc.devRef .tc main_arg13) := W2_of_ne m ρ c main_arg13 (by decide)
    _ = W0 m ρ c (Proc.devRef .tc main_arg13) := by host_keeps
    _ = m ((c : Thread nD τ).loc main_arg13) := rfl

/-- `main_arg9` at boundary 11 is as launched: nothing in between writes it. -/
theorem kept_main_arg9_11 (c : Dev nD) : W11 m ρ c (Proc.devRef .tc main_arg9) = m ((c : Thread nD τ).loc main_arg9) :=
  calc W11 m ρ c (Proc.devRef .tc main_arg9)
    _ = W10 m ρ c (Proc.devRef .tc main_arg9) := W11_of_ne m ρ c main_arg9 (by decide)
    _ = W9 m ρ c (Proc.devRef .tc main_arg9) := W10_of_ne m ρ c main_arg9 (by decide)
    _ = W8 m ρ c (Proc.devRef .tc main_arg9) := by host_keeps
    _ = W7 m ρ c (Proc.devRef .tc main_arg9) := W8_of_ne m ρ c main_arg9 (by decide)
    _ = W6 m ρ c (Proc.devRef .tc main_arg9) := W7_of_ne m ρ c main_arg9 (by decide)
    _ = W5 m ρ c (Proc.devRef .tc main_arg9) := by host_keeps
    _ = W4 m ρ c (Proc.devRef .tc main_arg9) := W5_of_ne m ρ c main_arg9 (by decide)
    _ = W3 m ρ c (Proc.devRef .tc main_arg9) := W4_of_ne m ρ c main_arg9 (by decide)
    _ = W2 m ρ c (Proc.devRef .tc main_arg9) := by host_keeps
    _ = W1 m ρ c (Proc.devRef .tc main_arg9) := W2_of_ne m ρ c main_arg9 (by decide)
    _ = W0 m ρ c (Proc.devRef .tc main_arg9) := by host_keeps
    _ = m ((c : Thread nD τ).loc main_arg9) := rfl

/-- `main_v6` at boundary 11 is what it held at boundary 1: nothing in between writes it. -/
theorem kept_main_v6_11 (c : Dev nD) : W11 m ρ c (Proc.devRef .tc main_v6) = W1 m ρ c (Proc.devRef .tc main_v6) :=
  calc W11 m ρ c (Proc.devRef .tc main_v6)
    _ = W10 m ρ c (Proc.devRef .tc main_v6) := W11_of_ne m ρ c main_v6 (by decide)
    _ = W9 m ρ c (Proc.devRef .tc main_v6) := W10_of_ne m ρ c main_v6 (by decide)
    _ = W8 m ρ c (Proc.devRef .tc main_v6) := by host_keeps
    _ = W7 m ρ c (Proc.devRef .tc main_v6) := W8_of_ne m ρ c main_v6 (by decide)
    _ = W6 m ρ c (Proc.devRef .tc main_v6) := W7_of_ne m ρ c main_v6 (by decide)
    _ = W5 m ρ c (Proc.devRef .tc main_v6) := by host_keeps
    _ = W4 m ρ c (Proc.devRef .tc main_v6) := W5_of_ne m ρ c main_v6 (by decide)
    _ = W3 m ρ c (Proc.devRef .tc main_v6) := W4_of_ne m ρ c main_v6 (by decide)
    _ = W2 m ρ c (Proc.devRef .tc main_v6) := by host_keeps
    _ = W1 m ρ c (Proc.devRef .tc main_v6) := W2_of_ne m ρ c main_v6 (by decide)

/-- `main_v48` at boundary 13 is what it held at boundary 10: nothing in between writes it. -/
theorem kept_main_v48_13 (c : Dev nD) : W13 m ρ c (Proc.devRef .tc main_v48) = W10 m ρ c (Proc.devRef .tc main_v48) :=
  calc W13 m ρ c (Proc.devRef .tc main_v48)
    _ = W12 m ρ c (Proc.devRef .tc main_v48) := W13_of_ne m ρ c main_v48 (by decide)
    _ = W11 m ρ c (Proc.devRef .tc main_v48) := by host_keeps
    _ = W10 m ρ c (Proc.devRef .tc main_v48) := W11_of_ne m ρ c main_v48 (by decide)

end Cert.KernelIdeal.Trace

end
-- ==== Proof.MatmulBlock.lean ====
/-
  The projection kernel's block against the whole product.

  At a grid point the kernel holds a block of 10000 rows of the features and the whole weight, and stores their
  product into a zero accumulator: entry `(p, q)` of the block is `Σ_k x[p, k] · w[k, q]` over the 128 features
  (the narrowing of the operands to bf16 changes nothing on exact values). The host's product of the whole feature
  array with the weight has, at `(r, q)`, the sum `Σ_k X[r, k] · W[k, q]`. So where the block's rows are rows of
  the array and its weight is the weight, the block's entries are the whole product's entries: the same sum, term by
  term, with no rearrangement.
-/
import proofs.«180740_j23252952940857_1_alg».proof.Proof.Gen.KernelIdeal.Skeleton
import proofs.«180740_j23252952940857_1_alg».proof.Proof.Gen.ReferenceIdeal.Read
import proofs.«180740_j23252952940857_1_alg».proof.Proof.Spec
import Idealize.ShloMosaic.Lib.ValueIdx
import Idealize.ShloMosaic.Lib.Pipeline.Value
import Idealize.ShloMosaic.PureOps.Ideal.Laws

noncomputable section

namespace Cert.Gnn

open Idealize.ShloMosaic Idealize.ShloMosaic.ValueIdx

/-- Row `j 0` of a block, at feature `k`. -/
abbrev blockRow (j : Cert.KernelIdeal.S10000x128.Idx) (k : Fin 128) : Cert.KernelIdeal.S10000x128.Idx := fun a => match a with
  | ⟨0, _⟩ => ⟨(j 0).val, (j 0).isLt⟩
  | ⟨1, _⟩ => ⟨k.val, k.isLt⟩
/-- Feature `k` of the weight, at column `j 1`. -/
abbrev blockCol (j : Cert.KernelIdeal.S10000x128.Idx) (k : Fin 128) : Cert.KernelIdeal.S128x128.Idx := fun a => match a with
  | ⟨0, _⟩ => ⟨k.val, k.isLt⟩
  | ⟨1, _⟩ => ⟨(j 1).val, (j 1).isLt⟩

section BlockDot
open Cert.KernelIdeal Cert.KernelIdeal.Gen

/-- The block product's left operand is read at the output's row … -/
theorem blockDot_lhs0 (j : S10000x128.Idx) (q : dot_S10000x128_S128x128_S10000x128_1_0_0_1_n_n.contr.Idx) :
    (dot_S10000x128_S128x128_S10000x128_1_0_0_1_n_n.lhsIdx j q 0).val = (j 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
/-- … and the summed feature, -/
theorem blockDot_lhs1 (j : S10000x128.Idx) (q : dot_S10000x128_S128x128_S10000x128_1_0_0_1_n_n.contr.Idx) :
    (dot_S10000x128_S128x128_S10000x128_1_0_0_1_n_n.lhsIdx j q 1).val = (q ⟨0, by decide⟩).val :=
  dot_S10000x128_S128x128_S10000x128_1_0_0_1_n_n.lhsIdx_val_of_single rfl j q
/-- the right operand at the summed feature … -/
theorem blockDot_rhs0 (j : S10000x128.Idx) (q : dot_S10000x128_S128x128_S10000x128_1_0_0_1_n_n.contr.Idx) :
    (dot_S10000x128_S128x128_S10000x128_1_0_0_1_n_n.rhsIdx j q 0).val = (q ⟨0, by decide⟩).val :=
  dot_S10000x128_S128x128_S10000x128_1_0_0_1_n_n.rhsIdx_val_of_single rfl j q
/-- … and the output's column. -/
theorem blockDot_rhs1 (j : S10000x128.Idx) (q : dot_S10000x128_S128x128_S10000x128_1_0_0_1_n_n.contr.Idx) :
    (dot_S10000x128_S128x128_S10000x128_1_0_0_1_n_n.rhsIdx j q 1).val = (j 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The kernel's stored block at an entry: the sum over the features of the products. -/
theorem blockProduct_apply (x0 : Vec Ideal S10000x128 .f32) (x1 : Vec Ideal S128x128 .f32) (j : S10000x128.Idx) :
    k0_pay1 (F := Ideal) x0 x1 j = ∑ k : Fin 128, x0 (blockRow j k) * x1 (blockCol j k) := by
  unfold k0_pay1
  simp only [matmul]
  rw [Ideal.matmul_constant_zero_apply, ← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx j ((contrEquiv1 dot_S10000x128_S128x128_S10000x128_1_0_0_1_n_n 128 rfl rfl).symm k) = blockRow j k :=
    funext fun a => Fin.ext (by
      match a with
      | ⟨0, _⟩ => exact blockDot_lhs0 _ _
      | ⟨1, _⟩ => exact (blockDot_lhs1 _ _).trans hk)
  have er : dot_S10000x128_S128x128_S10000x128_1_0_0_1_n_n.rhsIdx j ((contrEquiv1 dot_S10000x128_S128x128_S10000x128_1_0_0_1_n_n 128 rfl rfl).symm k) = blockCol j k :=
    funext fun a => Fin.ext (by
      match a with
      | ⟨0, _⟩ => exact (blockDot_rhs0 _ _).trans hk
      | ⟨1, _⟩ => exact blockDot_rhs1 _ _)
  rw [el, er]
  rfl

/-- The second layer's projection kernels re-lay their features to the shape they already have before narrowing them:
    nothing moves, so their stored block is the first layer's, entry for entry. -/
theorem blockProduct4_eq (x0 : Vec Ideal S10000x128 .f32) (x1 : Vec Ideal S128x128 .f32) :
    k4_pay1 (F := Ideal) x0 x1 = k0_pay1 (F := Ideal) x0 x1 := by
  unfold k4_pay1 k0_pay1
  simp only [shapeCast_self]
theorem blockProduct6_eq (x0 : Vec Ideal S10000x128 .f32) (x1 : Vec Ideal S128x128 .f32) :
    k6_pay1 (F := Ideal) x0 x1 = k0_pay1 (F := Ideal) x0 x1 := by
  unfold k6_pay1 k0_pay1
  simp only [shapeCast_self]

end BlockDot

open Cert.ReferenceIdeal Cert.ReferenceIdeal.Read in
/-- The whole product at an entry: the sum over the features of the products. -/
theorem project_apply (X : Arr S100000x128) (W : Arr S128x128) (i : S100000x128.Idx) :
    project X W i = ∑ k : Fin 128, X (lidx_main_v0 i k) * W (ridx_main_v0 i k) :=
  val_main_v0_apply X W i

open Cert.KernelIdeal Cert.KernelIdeal.Gen Cert.ReferenceIdeal.Read in
/-- A block entry is the whole product's entry `i`, where the block's row is the array's row `i 0` and its weight's
    column is the weight's column `i 1`. -/
theorem blockProduct_eq_project (X : Arr Cert.ReferenceIdeal.S100000x128) (W : Arr Cert.ReferenceIdeal.S128x128)
    (x0 : Vec Ideal S10000x128 .f32) (x1 : Vec Ideal S128x128 .f32) (j : S10000x128.Idx) (i : Cert.ReferenceIdeal.S100000x128.Idx)
    (hx : ∀ k : Fin 128, x0 (blockRow j k) = X (lidx_main_v0 i k))
    (hw : ∀ k : Fin 128, x1 (blockCol j k) = W (ridx_main_v0 i k)) :
    k0_pay1 (F := Ideal) x0 x1 j = project X W i := by
  rw [blockProduct_apply, project_apply]
  exact Finset.sum_congr rfl fun k _ => by rw [hx k, hw k]

end Cert.Gnn

end
-- ==== Proof.Region0.lean ====
/-
  What the first projection region leaves in its output array.

  The region runs the projection kernel at ten grid points; point `t` reads rows `10000 t … 10000 t + 9999` of the
  feature array and the whole weight, and writes the same rows of the output. Each written block is, entry by
  entry, the whole product `X · W` read through the block (the block's row `p` is the array's row `10000 t + p`, its
  weight is the weight), and the ten blocks tile the array: row `r` lies in block `r / 10000`. So the array ends
  holding `X · W`.
-/
import proofs.«180740_j23252952940857_1_alg».proof.Proof.Gen.KernelIdeal.Frame
import proofs.«180740_j23252952940857_1_alg».proof.Proof.MatmulBlock
import Idealize.ShloMosaic.Lib.Pipeline.Value

set_option maxRecDepth 16384

noncomputable section

namespace Cert.KernelIdeal.Region0

open Idealize.ShloMosaic Idealize.ShloMosaic.TcCoe Idealize.SL.Sem
open Idealize.ShloMosaic.Pipeline (Dat Cfg Window)
open Cert.KernelIdeal Cert.KernelIdeal.Gen Cert.ReferenceIdeal.Read

variable (V : (c : Dev nD) → (b : Ref sig .tc) → Buf (Elt Ideal) ((c : Thread nD τ).loc b))

theorem zeros : (![0, 0] : Fin 2 → Nat) = fun _ => 0 := funext fun a => by fin_cases a <;> rfl

/-- The printed index maps over the grid: the features' block and the output's block are block `t` of the rows and
    the only block of the columns; the weight's is its only block. -/
theorem index_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0 :=
  (by decide +kernel : ∀ t : Fin grid0.N, _)

/-- Every block of rows is some point's. -/
theorem index_onto : ∀ q0 : Fin 10, ∃ t : Fin cfg0.N, win0_2.index t = ![q0.val, 0] :=
  (by decide +kernel : ∀ q0 : Fin 10, ∃ t : Fin grid0.N, win0_2.index t = ![q0.val, 0])

/-- What point `t` writes back is block `t` of the whole product of the arrays the region finds. -/
theorem flushed_eq (c : Dev nD) (t : Fin cfg0.N) :
    (dat0 V c).flushed 2 t
      = ((cfg0.win 2).blk t).view.read (Elt Ideal) (Cert.Gnn.project (V c main_arg0) (V c main_arg2)) := by
  show (cfg0.win 2).cut (grid0.coords t) ((dat0 V c).after 2 t) = _
  rw [after0_2]
  unfold out0_2
  rw [View.canon_unit_zero zeros]
  simp only [View.ld_unit_zero (S := S10000x128) zeros, View.ld_unit_zero (S := S128x128) zeros]
  obtain ⟨e0, e1, e2, e3, e4⟩ := index_facts t
  funext j
  show k0_pay1 (F := Ideal) (iblk0 V c 0 t) (iblk0 V c 1 t) j
    = Cert.Gnn.project (V c main_arg0) (V c main_arg2) (((cfg0.win 2).blk t).view.emb j)
  refine Cert.Gnn.blockProduct_eq_project _ _ _ _ j _ (fun k => ?_) (fun k => ?_)
  · show V c main_arg0 (((cfg0.win 0).blk t).view.emb (Cert.Gnn.blockRow j k))
      = V c main_arg0 (lidx_main_v0 (((cfg0.win 2).blk t).view.emb j) k)
    refine congrArg _ (funext fun a => Fin.ext ?_)
    match a with
    | ⟨0, _⟩ =>
      show win0_0.index t (0 : Fin 2) * 10000 + 1 * (j 0).val = win0_2.index t (0 : Fin 2) * 10000 + 1 * (j 0).val
      omega
    | ⟨1, _⟩ =>
      show win0_0.index t (1 : Fin 2) * 128 + 1 * k.val = k.val
      omega
  · show V c main_arg2 (((cfg0.win 1).blk t).view.emb (Cert.Gnn.blockCol j k))
      = V c main_arg2 (ridx_main_v0 (((cfg0.win 2).blk t).view.emb j) k)
    refine congrArg _ (funext fun a => Fin.ext ?_)
    match a with
    | ⟨0, _⟩ =>
      show win0_1.index t (0 : Fin 2) * 128 + 1 * k.val = k.val
      omega
    | ⟨1, _⟩ =>
      show win0_1.index t (1 : Fin 2) * 128 + 1 * (j 1).val = win0_2.index t (1 : Fin 2) * 128 + 1 * (j 1).val
      omega

/-- An entry is in point `t`'s block iff each coordinate is in the block's range. -/
theorem mem_blk (t : Fin cfg0.N) (i : S100000x128.Idx) :
    i ∈ ((cfg0.win 2).blk t).view.set ↔ ∀ a : Fin 2, win0_2.index t a * S10000x128.size a ≤ (i a).val
      ∧ (i a).val < win0_2.index t a * S10000x128.size a + S10000x128.size a := by
  show i ∈ ((View.whole main_v7).slice (win0_2.rect t)).set ↔ _
  rw [View.set_slice_whole, Rect.mem_set_unit]
  exact Iff.rfl

/-- The blocks tile the array: row `r` is in block `r / 10000`. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := index_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk]
  intro a
  match a with
  | ⟨0, _⟩ =>
    show win0_2.index t (0 : Fin 2) * 10000 ≤ (i 0).val ∧ (i 0).val < win0_2.index t (0 : Fin 2) * 10000 + 10000
    omega
  | ⟨1, _⟩ =>
    show win0_2.index t (1 : Fin 2) * 128 ≤ (i 1).val ∧ (i 1).val < win0_2.index t (1 : Fin 2) * 128 + 128
    omega

/-- The output array after the region: the whole product of the feature array and the weight it found. -/
theorem final (c : Dev nD) :
    (dat0 V c).arrAt 2 cfg0.N = Cert.Gnn.project (V c main_arg0) (V c main_arg2) :=
  (dat0 V c).arrAt_eq_of_cover 2 _ (fun t _ => flushed_eq V c t) cover

end Cert.KernelIdeal.Region0

end
-- ==== Proof.FinalizeBlock.lean ====
/-
  The normalising kernel's block against the reference's expression.

  At a grid point the kernel holds 5000 rows of the summed messages, the matching 5000 in-degrees as a column, and the
  bias as a row, and stores, at entry `(p, q)`,

      max (a[p, q] / max (d[p, 0]) 1 + b[0, q]) 0.

  The reference computes `max deg 1` over all nodes, spreads it along the rows, divides, spreads the bias down the
  columns, adds, and keeps the positive part: at `(r, q)` that is `max (A[r, q] / max (deg r) 1 + bias q) 0`. Both are
  pointwise, so where the block's entry, degree and bias are the array's, the two values are one expression.
-/
import proofs.«180740_j23252952940857_1_alg».proof.Proof.Gen.KernelIdeal.Skeleton
import proofs.«180740_j23252952940857_1_alg».proof.Proof.Spec
import Idealize.ShloMosaic.Lib.ValueIdx
import Idealize.ShloMosaic.Lib.Pipeline.Value

noncomputable section

namespace Cert.Gnn

open Idealize.ShloMosaic Idealize.ShloMosaic.ValueIdx

/-- The one the degree is raised to, and the zero the result is cut at. -/
abbrev one32 : EReal := Ideal.ofBits .f32 0x3F800000#32
abbrev zero32 : EReal := Ideal.ofBits .f32 0x00000000#32

/-- The normalised, biased, rectified value from a sum `a`, a degree `d` and a bias `b`. -/
abbrev finishAt (a d b : EReal) : EReal := max (Ideal.div a (max d one32) + b) zero32

section Block
open Cert.KernelIdeal Cert.KernelIdeal.Gen

/-- The degree a block entry divides by: its row of the degree column. -/
abbrev blockDeg (j : S5000x128.Idx) : S5000x1.Idx := ix2 (n0 := 5000) (n1 := 1) ⟨(j 0).val, (j 0).isLt⟩ ⟨0, Nat.one_pos⟩
/-- The bias a block entry adds: its column of the bias row. -/
abbrev blockBias (j : S5000x128.Idx) : S1x128.Idx := ix2 (n0 := 1) (n1 := 128) ⟨0, Nat.one_pos⟩ ⟨(j 1).val, (j 1).isLt⟩

/-- The kernel's stored block at an entry. -/
theorem blockFinish_apply (x0 : Vec Ideal S5000x128 .f32) (x1 : Vec Ideal S5000x1 .f32) (x2 : Vec Ideal S1x128 .f32) (j : S5000x128.Idx) :
    k1_pay1 (F := Ideal) x0 x1 x2 j = finishAt (x0 j) (x1 (blockDeg j)) (x2 (blockBias j)) := by
  unfold k1_pay1
  simp only [shapeCast_self]
  show max (Ideal.div (x0 j) (broadcastTo S5000x128 (maximumf x1 (broadcast S5000x1 (Scalar.ofBits (F := Ideal) .f32 0x3F800000#32))) broadcasts_S5000x1_S5000x128 j)
      + broadcastTo S5000x128 x2 broadcasts_S1x128_S5000x128 j) (Scalar.ofBits (F := Ideal) .f32 0x00000000#32) = _
  rw [broadcastTo_apply _ broadcasts_S5000x1_S5000x128 j (blockDeg j) (fun a => by match a with | ⟨0, _⟩ => rfl | ⟨1, _⟩ => rfl),
    broadcastTo_apply _ broadcasts_S1x128_S5000x128 j (blockBias j) (fun a => by match a with | ⟨0, _⟩ => rfl | ⟨1, _⟩ => rfl)]
  rfl

end Block

section Whole
open Cert.ReferenceIdeal Cert.ReferenceIdeal.Gen

/-- The node an entry belongs to. -/
abbrev nodeOf (i : S100000x128.Idx) : S100000.Idx := ix1 (n := 100000) ⟨(i 0).val, (i 0).isLt⟩
/-- The feature an entry belongs to. -/
abbrev featOf (i : S100000x128.Idx) : S128.Idx := ix1 (n := 128) ⟨(i 1).val, (i 1).isLt⟩
/-- The node's entry of a degree column `[N, 1]`. -/
abbrev nodeCol (i : S100000x128.Idx) : S100000x1.Idx := ix2 (n0 := 100000) (n1 := 1) ⟨(i 0).val, (i 0).isLt⟩ ⟨0, Nat.one_pos⟩
/-- The feature's entry of a bias row `[1, 128]`. -/
abbrev featRow (i : S100000x128.Idx) : S1x128.Idx := ix2 (n0 := 1) (n1 := 128) ⟨0, Nat.one_pos⟩ ⟨(i 1).val, (i 1).isLt⟩

/-- The reference's expression at an entry. -/
theorem finish_apply (A : Arr S100000x128) (D : Arr S100000) (B : Arr S128) (i : S100000x128.Idx) :
    finish A D B i = finishAt (A i) (D (nodeOf i)) (B (featOf i)) := by
  unfold finish
  show max (Ideal.div (A i)
        (broadcastInDim S100000x128 ![0, 1] bcast_S100000x1_S100000x128_0_1
          (broadcastInDim S100000x1 ![0] bcast_S100000_S100000x1_0
            (maximumf D (broadcastInDim S100000 ![] bcast_S_S100000 (constant (F := Ideal) S_ .f32 0x3F800000#32)))) i)
      + broadcastInDim S100000x128 ![0, 1] bcast_S1x128_S100000x128_0_1 (broadcastInDim S1x128 ![1] bcast_S128_S1x128_1 B) i)
      (broadcastInDim S100000x128 ![] bcast_S_S100000x128 (constant (F := Ideal) S_ .f32 0x00000000#32) i) = _
  rw [broadcastInDim_apply _ bcast_S100000x1_S100000x128_0_1 _ i (nodeCol i) (fun a => by match a with | ⟨0, _⟩ => rfl | ⟨1, _⟩ => rfl),
    broadcastInDim_apply _ bcast_S100000_S100000x1_0 _ (nodeCol i) (nodeOf i) (fun a => by match a with | ⟨0, _⟩ => rfl),
    broadcastInDim_apply _ bcast_S1x128_S100000x128_0_1 _ i (featRow i) (fun a => by match a with | ⟨0, _⟩ => rfl | ⟨1, _⟩ => rfl),
    broadcastInDim_apply _ bcast_S128_S1x128_1 _ (featRow i) (featOf i) (fun a => by match a with | ⟨0, _⟩ => rfl),
    broadcastInDim_apply _ bcast_S_S100000x128 _ i ix0 (fun a => a.elim0)]
  show max (Ideal.div (A i) (max (D (nodeOf i)) (broadcastInDim S100000 ![] bcast_S_S100000 (constant (F := Ideal) S_ .f32 0x3F800000#32) (nodeOf i))) + B (featOf i)) _ = _
  rw [broadcastInDim_apply _ bcast_S_S100000 _ (nodeOf i) ix0 (fun a => a.elim0)]
  rfl

end Whole

/-- A block entry is the reference's expression at `i`, where the block's sum, degree and bias are the arrays' at `i`. -/
theorem blockFinish_eq_finish (A : Arr Cert.ReferenceIdeal.S100000x128) (D : Arr Cert.ReferenceIdeal.S100000) (B : Arr Cert.ReferenceIdeal.S128)
    (x0 : Vec Ideal Cert.KernelIdeal.S5000x128 .f32) (x1 : Vec Ideal Cert.KernelIdeal.S5000x1 .f32) (x2 : Vec Ideal Cert.KernelIdeal.S1x128 .f32)
    (j : Cert.KernelIdeal.S5000x128.Idx) (i : Cert.ReferenceIdeal.S100000x128.Idx)
    (h0 : x0 j = A i) (h1 : x1 (blockDeg j) = D (nodeOf i)) (h2 : x2 (blockBias j) = B (featOf i)) :
    Cert.KernelIdeal.Gen.k1_pay1 (F := Ideal) x0 x1 x2 j = finish A D B i := by
  rw [blockFinish_apply, finish_apply, h0, h1, h2]

end Cert.Gnn

end
-- ==== Proof.Region1.lean ====
/-
  What the first normalising region leaves in its output array.

  The region runs the normalising kernel at twenty grid points; point `t` reads rows `5000 t … 5000 t + 4999` of the
  summed messages and of the degree column, the whole bias row, and writes the same rows of the output. The degree
  column is the degree vector re-laid as `[N, 1]` and the bias row the bias vector re-laid as `[1, 128]`, so entry
  `(p, q)` of block `t` divides by the degree of node `5000 t + p` and adds the bias of feature `q`: the reference's
  expression read through the block. The twenty blocks tile the array (row `r` lies in block `r / 5000`), so the
  array ends holding the reference's expression of the sums, the degrees and the bias.
-/
import proofs.«180740_j23252952940857_1_alg».proof.Proof.Gen.KernelIdeal.Frame
import proofs.«180740_j23252952940857_1_alg».proof.Proof.FinalizeBlock
import Idealize.ShloMosaic.Lib.Pipeline.Value

set_option maxRecDepth 16384

noncomputable section

namespace Cert.KernelIdeal.Region1

open Idealize.ShloMosaic Idealize.ShloMosaic.TcCoe Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem zeros : (![0, 0] : Fin 2 → Nat) = fun _ => 0 := funext fun a => by fin_cases a <;> rfl

/-- The printed index maps over the grid: the sums', the degrees' and the output's blocks are block `t` of the rows;
    every window has one block of columns; the bias row is its only block. -/
theorem index_facts : ∀ t : Fin cfg1.N, win1_0.index t (0 : Fin 2) = win1_3.index t (0 : Fin 2)
    ∧ win1_0.index t (1 : Fin 2) = 0
    ∧ win1_1.index t (0 : Fin 2) = win1_3.index t (0 : Fin 2)
    ∧ win1_1.index t (1 : Fin 2) = 0
    ∧ win1_2.index t (0 : Fin 2) = 0
    ∧ win1_2.index t (1 : Fin 2) = 0
    ∧ win1_3.index t (1 : Fin 2) = 0 :=
  (by decide +kernel : ∀ t : Fin grid1.N, _)

/-- Every block of rows is some point's. -/
theorem index_onto : ∀ q0 : Fin 20, ∃ t : Fin cfg1.N, win1_3.index t = ![q0.val, 0] :=
  (by decide +kernel : ∀ q0 : Fin 20, ∃ t : Fin grid1.N, win1_3.index t = ![q0.val, 0])

/-- What point `t` writes back is block `t` of the reference's expression of the arrays the region finds, the degree
    column being `D` re-laid and the bias row `B` re-laid. -/
theorem flushed_eq (c : Dev nD) (D : Cert.Gnn.Arr Cert.ReferenceIdeal.S100000) (B : Cert.Gnn.Arr Cert.ReferenceIdeal.S128)
    (hD : V c main_v18 = shapeCast S100000x1 D shapeCasts_S100000_S100000x1)
    (hB : V c main_v19 = shapeCast S1x128 B shapeCasts_S128_S1x128) (t : Fin cfg1.N) :
    (dat1 V c).flushed 3 t
      = ((cfg1.win 3).blk t).view.read (Elt Ideal) (Cert.Gnn.finish (V c main_v17) D B) := by
  show (cfg1.win 3).cut (grid1.coords t) ((dat1 V c).after 3 t) = _
  rw [after1_3]
  unfold out1_3
  rw [View.canon_unit_zero zeros]
  simp only [View.ld_unit_zero (S := S5000x128) zeros, View.ld_unit_zero (S := S5000x1) zeros, View.ld_unit_zero (S := S1x128) zeros]
  obtain ⟨e0, e1, e2, e3, e4, e5, e6⟩ := index_facts t
  funext j
  show k1_pay1 (F := Ideal) (iblk1 V c 0 t) (iblk1 V c 1 t) (iblk1 V c 2 t) j
    = Cert.Gnn.finish (V c main_v17) D B (((cfg1.win 3).blk t).view.emb j)
  refine Cert.Gnn.blockFinish_eq_finish _ _ _ _ _ _ j _ ?_ ?_ ?_
  · show V c main_v17 (((cfg1.win 0).blk t).view.emb j) = V c main_v17 (((cfg1.win 3).blk t).view.emb j)
    refine congrArg _ (funext fun a => Fin.ext ?_)
    match a with
    | ⟨0, _⟩ =>
      show win1_0.index t (0 : Fin 2) * 5000 + 1 * (j 0).val = win1_3.index t (0 : Fin 2) * 5000 + 1 * (j 0).val
      omega
    | ⟨1, _⟩ =>
      show win1_0.index t (1 : Fin 2) * 128 + 1 * (j 1).val = win1_3.index t (1 : Fin 2) * 128 + 1 * (j 1).val
      omega
  · show V c main_v18 (((cfg1.win 1).blk t).view.emb (Cert.Gnn.blockDeg j))
      = D (Cert.Gnn.nodeOf (((cfg1.win 3).blk t).view.emb j))
    rw [hD]
    refine shapeCast_apply D _ _ _ ?_
    rw [Shape.rowMajor_val_one, Shape.rowMajor_val_two]
    show win1_3.index t (0 : Fin 2) * 5000 + 1 * (j 0).val
      = (win1_1.index t (0 : Fin 2) * 5000 + 1 * (j 0).val) * 1 + (win1_1.index t (1 : Fin 2) * 1 + 1 * 0)
    omega
  · show V c main_v19 (((cfg1.win 2).blk t).view.emb (Cert.Gnn.blockBias j))
      = B (Cert.Gnn.featOf (((cfg1.win 3).blk t).view.emb j))
    rw [hB]
    refine shapeCast_apply B _ _ _ ?_
    rw [Shape.rowMajor_val_one, Shape.rowMajor_val_two]
    show win1_3.index t (1 : Fin 2) * 128 + 1 * (j 1).val
      = (win1_2.index t (0 : Fin 2) * 1 + 1 * 0) * 128 + (win1_2.index t (1 : Fin 2) * 128 + 1 * (j 1).val)
    omega

/-- An entry is in point `t`'s block iff each coordinate is in the block's range. -/
theorem mem_blk (t : Fin cfg1.N) (i : S100000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v20).slice (win1_3.rect t)).set ↔ _
  rw [View.set_slice_whole, Rect.mem_set_unit]
  exact Iff.rfl

/-- The blocks tile the array: row `r` is in block `r / 5000`. -/
theorem cover (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  obtain ⟨t, ht⟩ := index_onto ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_blk]
  intro a
  match a with
  | ⟨0, _⟩ =>
    show win1_3.index t (0 : Fin 2) * 5000 ≤ (i 0).val ∧ (i 0).val < win1_3.index t (0 : Fin 2) * 5000 + 5000
    omega
  | ⟨1, _⟩ =>
    show win1_3.index t (1 : Fin 2) * 128 ≤ (i 1).val ∧ (i 1).val < win1_3.index t (1 : Fin 2) * 128 + 128
    omega

/-- The output array after the region: the reference's expression of the sums it found, the degrees and the bias. -/
theorem final (c : Dev nD) (D : Cert.Gnn.Arr Cert.ReferenceIdeal.S100000) (B : Cert.Gnn.Arr Cert.ReferenceIdeal.S128)
    (hD : V c main_v18 = shapeCast S100000x1 D shapeCasts_S100000_S100000x1)
    (hB : V c main_v19 = shapeCast S1x128 B shapeCasts_S128_S1x128) :
    (dat1 V c).arrAt 3 cfg1.N = Cert.Gnn.finish (V c main_v17) D B :=
  (dat1 V c).arrAt_eq_of_cover 3 _ (fun t _ => flushed_eq V c D B hD hB t) cover

end Cert.KernelIdeal.Region1

end
-- ==== Proof.Region2.lean ====
/-
  What the second projection region leaves in its output array.

  The region runs the projection kernel at ten grid points; point `t` reads rows `10000 t … 10000 t + 9999` of the
  feature array and the whole weight, and writes the same rows of the output. Each written block is, entry by
  entry, the whole product `X · W` read through the block (the block's row `p` is the array's row `10000 t + p`, its
  weight is the weight), and the ten blocks tile the array: row `r` lies in block `r / 10000`. So the array ends
  holding `X · W`.
-/
import proofs.«180740_j23252952940857_1_alg».proof.Proof.Gen.KernelIdeal.Frame
import proofs.«180740_j23252952940857_1_alg».proof.Proof.MatmulBlock
import Idealize.ShloMosaic.Lib.Pipeline.Value

set_option maxRecDepth 16384

noncomputable section

namespace Cert.KernelIdeal.Region2

open Idealize.ShloMosaic Idealize.ShloMosaic.TcCoe Idealize.SL.Sem
open Idealize.ShloMosaic.Pipeline (Dat Cfg Window)
open Cert.KernelIdeal Cert.KernelIdeal.Gen Cert.ReferenceIdeal.Read

variable (V : (c : Dev nD) → (b : Ref sig .tc) → Buf (Elt Ideal) ((c : Thread nD τ).loc b))

theorem zeros : (![0, 0] : Fin 2 → Nat) = fun _ => 0 := funext fun a => by fin_cases a <;> rfl

/-- The printed index maps over the grid: the features' block and the output's block are block `t` of the rows and
    the only block of the columns; the weight's is its only block. -/
theorem index_facts : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0 :=
  (by decide +kernel : ∀ t : Fin grid2.N, _)

/-- Every block of rows is some point's. -/
theorem index_onto : ∀ q0 : Fin 10, ∃ t : Fin cfg2.N, win2_2.index t = ![q0.val, 0] :=
  (by decide +kernel : ∀ q0 : Fin 10, ∃ t : Fin grid2.N, win2_2.index t = ![q0.val, 0])

/-- What point `t` writes back is block `t` of the whole product of the arrays the region finds. -/
theorem flushed_eq (c : Dev nD) (t : Fin cfg2.N) :
    (dat2 V c).flushed 2 t
      = ((cfg2.win 2).blk t).view.read (Elt Ideal) (Cert.Gnn.project (V c main_arg1) (V c main_arg4)) := by
  show (cfg2.win 2).cut (grid2.coords t) ((dat2 V c).after 2 t) = _
  rw [after2_2]
  unfold out2_2
  rw [View.canon_unit_zero zeros]
  simp only [View.ld_unit_zero (S := S10000x128) zeros, View.ld_unit_zero (S := S128x128) zeros]
  obtain ⟨e0, e1, e2, e3, e4⟩ := index_facts t
  funext j
  show k0_pay1 (F := Ideal) (iblk2 V c 0 t) (iblk2 V c 1 t) j
    = Cert.Gnn.project (V c main_arg1) (V c main_arg4) (((cfg2.win 2).blk t).view.emb j)
  refine Cert.Gnn.blockProduct_eq_project _ _ _ _ j _ (fun k => ?_) (fun k => ?_)
  · show V c main_arg1 (((cfg2.win 0).blk t).view.emb (Cert.Gnn.blockRow j k))
      = V c main_arg1 (lidx_main_v0 (((cfg2.win 2).blk t).view.emb j) k)
    refine congrArg _ (funext fun a => Fin.ext ?_)
    match a with
    | ⟨0, _⟩ =>
      show win2_0.index t (0 : Fin 2) * 10000 + 1 * (j 0).val = win2_2.index t (0 : Fin 2) * 10000 + 1 * (j 0).val
      omega
    | ⟨1, _⟩ =>
      show win2_0.index t (1 : Fin 2) * 128 + 1 * k.val = k.val
      omega
  · show V c main_arg4 (((cfg2.win 1).blk t).view.emb (Cert.Gnn.blockCol j k))
      = V c main_arg4 (ridx_main_v0 (((cfg2.win 2).blk t).view.emb j) k)
    refine congrArg _ (funext fun a => Fin.ext ?_)
    match a with
    | ⟨0, _⟩ =>
      show win2_1.index t (0 : Fin 2) * 128 + 1 * k.val = k.val
      omega
    | ⟨1, _⟩ =>
      show win2_1.index t (1 : Fin 2) * 128 + 1 * (j 1).val = win2_2.index t (1 : Fin 2) * 128 + 1 * (j 1).val
      omega

/-- An entry is in point `t`'s block iff each coordinate is in the block's range. -/
theorem mem_blk (t : Fin cfg2.N) (i : S100000x128.Idx) :
    i ∈ ((cfg2.win 2).blk t).view.set ↔ ∀ a : Fin 2, win2_2.index t a * S10000x128.size a ≤ (i a).val
      ∧ (i a).val < win2_2.index t a * S10000x128.size a + S10000x128.size a := by
  show i ∈ ((View.whole main_v21).slice (win2_2.rect t)).set ↔ _
  rw [View.set_slice_whole, Rect.mem_set_unit]
  exact Iff.rfl

/-- The blocks tile the array: row `r` is in block `r / 10000`. -/
theorem cover (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  obtain ⟨t, ht⟩ := index_onto ⟨(i 0).val / 10000, by omega⟩
  have q0 : win2_2.index t (0 : Fin 2) = (i 0).val / 10000 := congrFun ht 0
  have q1 : win2_2.index t (1 : Fin 2) = 0 := congrFun ht 1
  refine ⟨t, flush2_2 t, ?_⟩
  rw [mem_blk]
  intro a
  match a with
  | ⟨0, _⟩ =>
    show win2_2.index t (0 : Fin 2) * 10000 ≤ (i 0).val ∧ (i 0).val < win2_2.index t (0 : Fin 2) * 10000 + 10000
    omega
  | ⟨1, _⟩ =>
    show win2_2.index t (1 : Fin 2) * 128 ≤ (i 1).val ∧ (i 1).val < win2_2.index t (1 : Fin 2) * 128 + 128
    omega

/-- The output array after the region: the whole product of the feature array and the weight it found. -/
theorem final (c : Dev nD) :
    (dat2 V c).arrAt 2 cfg2.N = Cert.Gnn.project (V c main_arg1) (V c main_arg4) :=
  (dat2 V c).arrAt_eq_of_cover 2 _ (fun t _ => flushed_eq V c t) cover

end Cert.KernelIdeal.Region2

end
-- ==== Proof.Region3.lean ====
/-
  What the second normalising region leaves in its output array.

  The region runs the normalising kernel at twenty grid points; point `t` reads rows `5000 t … 5000 t + 4999` of the
  summed messages and of the degree column, the whole bias row, and writes the same rows of the output. The degree
  column is the degree vector re-laid as `[N, 1]` and the bias row the bias vector re-laid as `[1, 128]`, so entry
  `(p, q)` of block `t` divides by the degree of node `5000 t + p` and adds the bias of feature `q`: the reference's
  expression read through the block. The twenty blocks tile the array (row `r` lies in block `r / 5000`), so the
  array ends holding the reference's expression of the sums, the degrees and the bias.
-/
import proofs.«180740_j23252952940857_1_alg».proof.Proof.Gen.KernelIdeal.Frame
import proofs.«180740_j23252952940857_1_alg».proof.Proof.FinalizeBlock
import Idealize.ShloMosaic.Lib.Pipeline.Value

set_option maxRecDepth 16384

noncomputable section

namespace Cert.KernelIdeal.Region3

open Idealize.ShloMosaic Idealize.ShloMosaic.TcCoe Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem zeros : (![0, 0] : Fin 2 → Nat) = fun _ => 0 := funext fun a => by fin_cases a <;> rfl

/-- The printed index maps over the grid: the sums', the degrees' and the output's blocks are block `t` of the rows;
    every window has one block of columns; the bias row is its only block. -/
theorem index_facts : ∀ t : Fin cfg3.N, win3_0.index t (0 : Fin 2) = win3_3.index t (0 : Fin 2)
    ∧ win3_0.index t (1 : Fin 2) = 0
    ∧ win3_1.index t (0 : Fin 2) = win3_3.index t (0 : Fin 2)
    ∧ win3_1.index t (1 : Fin 2) = 0
    ∧ win3_2.index t (0 : Fin 2) = 0
    ∧ win3_2.index t (1 : Fin 2) = 0
    ∧ win3_3.index t (1 : Fin 2) = 0 :=
  (by decide +kernel : ∀ t : Fin grid3.N, _)

/-- Every block of rows is some point's. -/
theorem index_onto : ∀ q0 : Fin 20, ∃ t : Fin cfg3.N, win3_3.index t = ![q0.val, 0] :=
  (by decide +kernel : ∀ q0 : Fin 20, ∃ t : Fin grid3.N, win3_3.index t = ![q0.val, 0])

/-- What point `t` writes back is block `t` of the reference's expression of the arrays the region finds, the degree
    column being `D` re-laid and the bias row `B` re-laid. -/
theorem flushed_eq (c : Dev nD) (D : Cert.Gnn.Arr Cert.ReferenceIdeal.S100000) (B : Cert.Gnn.Arr Cert.ReferenceIdeal.S128)
    (hD : V c main_v32 = shapeCast S100000x1 D shapeCasts_S100000_S100000x1)
    (hB : V c main_v33 = shapeCast S1x128 B shapeCasts_S128_S1x128) (t : Fin cfg3.N) :
    (dat3 V c).flushed 3 t
      = ((cfg3.win 3).blk t).view.read (Elt Ideal) (Cert.Gnn.finish (V c main_v31) D B) := by
  show (cfg3.win 3).cut (grid3.coords t) ((dat3 V c).after 3 t) = _
  rw [after3_3]
  unfold out3_3
  rw [View.canon_unit_zero zeros]
  simp only [View.ld_unit_zero (S := S5000x128) zeros, View.ld_unit_zero (S := S5000x1) zeros, View.ld_unit_zero (S := S1x128) zeros]
  obtain ⟨e0, e1, e2, e3, e4, e5, e6⟩ := index_facts t
  funext j
  show k1_pay1 (F := Ideal) (iblk3 V c 0 t) (iblk3 V c 1 t) (iblk3 V c 2 t) j
    = Cert.Gnn.finish (V c main_v31) D B (((cfg3.win 3).blk t).view.emb j)
  refine Cert.Gnn.blockFinish_eq_finish _ _ _ _ _ _ j _ ?_ ?_ ?_
  · show V c main_v31 (((cfg3.win 0).blk t).view.emb j) = V c main_v31 (((cfg3.win 3).blk t).view.emb j)
    refine congrArg _ (funext fun a => Fin.ext ?_)
    match a with
    | ⟨0, _⟩ =>
      show win3_0.index t (0 : Fin 2) * 5000 + 1 * (j 0).val = win3_3.index t (0 : Fin 2) * 5000 + 1 * (j 0).val
      omega
    | ⟨1, _⟩ =>
      show win3_0.index t (1 : Fin 2) * 128 + 1 * (j 1).val = win3_3.index t (1 : Fin 2) * 128 + 1 * (j 1).val
      omega
  · show V c main_v32 (((cfg3.win 1).blk t).view.emb (Cert.Gnn.blockDeg j))
      = D (Cert.Gnn.nodeOf (((cfg3.win 3).blk t).view.emb j))
    rw [hD]
    refine shapeCast_apply D _ _ _ ?_
    rw [Shape.rowMajor_val_one, Shape.rowMajor_val_two]
    show win3_3.index t (0 : Fin 2) * 5000 + 1 * (j 0).val
      = (win3_1.index t (0 : Fin 2) * 5000 + 1 * (j 0).val) * 1 + (win3_1.index t (1 : Fin 2) * 1 + 1 * 0)
    omega
  · show V c main_v33 (((cfg3.win 2).blk t).view.emb (Cert.Gnn.blockBias j))
      = B (Cert.Gnn.featOf (((cfg3.win 3).blk t).view.emb j))
    rw [hB]
    refine shapeCast_apply B _ _ _ ?_
    rw [Shape.rowMajor_val_one, Shape.rowMajor_val_two]
    show win3_3.index t (1 : Fin 2) * 128 + 1 * (j 1).val
      = (win3_2.index t (0 : Fin 2) * 1 + 1 * 0) * 128 + (win3_2.index t (1 : Fin 2) * 128 + 1 * (j 1).val)
    omega

/-- An entry is in point `t`'s block iff each coordinate is in the block's range. -/
theorem mem_blk (t : Fin cfg3.N) (i : S100000x128.Idx) :
    i ∈ ((cfg3.win 3).blk t).view.set ↔ ∀ a : Fin 2, win3_3.index t a * S5000x128.size a ≤ (i a).val
      ∧ (i a).val < win3_3.index t a * S5000x128.size a + S5000x128.size a := by
  show i ∈ ((View.whole main_v34).slice (win3_3.rect t)).set ↔ _
  rw [View.set_slice_whole, Rect.mem_set_unit]
  exact Iff.rfl

/-- The blocks tile the array: row `r` is in block `r / 5000`. -/
theorem cover (i : S100000x128.Idx) :
    ∃ t : Fin cfg3.N, (cfg3.win 3).flush t = true ∧ i ∈ ((cfg3.win 3).blk t).view.set := by
  have hi0 : (i 0).val < 100000 := (i 0).isLt
  have hi1 : (i 1).val < 128 := (i 1).isLt
  obtain ⟨t, ht⟩ := index_onto ⟨(i 0).val / 5000, by omega⟩
  have q0 : win3_3.index t (0 : Fin 2) = (i 0).val / 5000 := congrFun ht 0
  have q1 : win3_3.index t (1 : Fin 2) = 0 := congrFun ht 1
  refine ⟨t, flush3_3 t, ?_⟩
  rw [mem_blk]
  intro a
  match a with
  | ⟨0, _⟩ =>
    show win3_3.index t (0 : Fin 2) * 5000 ≤ (i 0).val ∧ (i 0).val < win3_3.index t (0 : Fin 2) * 5000 + 5000
    omega
  | ⟨1, _⟩ =>
    show win3_3.index t (1 : Fin 2) * 128 ≤ (i 1).val ∧ (i 1).val < win3_3.index t (1 : Fin 2) * 128 + 128
    omega

/-- The output array after the region: the reference's expression of the sums it found, the degrees and the bias. -/
theorem final (c : Dev nD) (D : Cert.Gnn.Arr Cert.ReferenceIdeal.S100000) (B : Cert.Gnn.Arr Cert.ReferenceIdeal.S128)
    (hD : V c main_v32 = shapeCast S100000x1 D shapeCasts_S100000_S100000x1)
    (hB : V c main_v33 = shapeCast S1x128 B shapeCasts_S128_S1x128) :
    (dat3 V c).arrAt 3 cfg3.N = Cert.Gnn.finish (V c main_v31) D B :=
  (dat3 V c).arrAt_eq_of_cover 3 _ (fun t _ => flushed_eq V c D B hD hB t) cover

end Cert.KernelIdeal.Region3

end
-- ==== Proof.Region4.lean ====
/-
  What the third projection region leaves in its output array.

  The region runs the projection kernel at ten grid points; point `t` reads rows `10000 t … 10000 t + 9999` of the
  feature array and the whole weight, and writes the same rows of the output. Each written block is, entry by
  entry, the whole product `X · W` read through the block (the block's row `p` is the array's row `10000 t + p`, its
  weight is the weight), and the ten blocks tile the array: row `r` lies in block `r / 10000`. So the array ends
  holding `X · W`.
-/
import proofs.«180740_j23252952940857_1_alg».proof.Proof.Gen.KernelIdeal.Frame
import proofs.«180740_j23252952940857_1_alg».proof.Proof.MatmulBlock
import Idealize.ShloMosaic.Lib.Pipeline.Value

set_option maxRecDepth 16384

noncomputable section

namespace Cert.KernelIdeal.Region4

open Idealize.ShloMosaic Idealize.ShloMosaic.TcCoe Idealize.SL.Sem
open Idealize.ShloMosaic.Pipeline (Dat Cfg Window)
open Cert.KernelIdeal Cert.KernelIdeal.Gen Cert.ReferenceIdeal.Read

variable (V : (c : Dev nD) → (b : Ref sig .tc) → Buf (Elt Ideal) ((c : Thread nD τ).loc b))

theorem zeros : (![0, 0] : Fin 2 → Nat) = fun _ => 0 := funext fun a => by fin_cases a <;> rfl

/-- The printed index maps over the grid: the features' block and the output's block are block `t` of the rows and
    the only block of the columns; the weight's is its only block. -/
theorem index_facts : ∀ t : Fin cfg4.N, win4_0.index t (0 : Fin 2) = win4_2.index t (0 : Fin 2)
    ∧ win4_0.index t (1 : Fin 2) = 0
    ∧ win4_1.index t (0 : Fin 2) = 0
    ∧ win4_1.index t (1 : Fin 2) = 0
    ∧ win4_2.index t (1 : Fin 2) = 0 :=
  (by decide +kernel : ∀ t : Fin grid4.N, _)

/-- Every block of rows is some point's. -/
theorem index_onto : ∀ q0 : Fin 10, ∃ t : Fin cfg4.N, win4_2.index t = ![q0.val, 0] :=
  (by decide +kernel : ∀ q0 : Fin 10, ∃ t : Fin grid4.N, win4_2.index t = ![q0.val, 0])

/-- What point `t` writes back is block `t` of the whole product of the arrays the region finds. -/
theorem flushed_eq (c : Dev nD) (t : Fin cfg4.N) :
    (dat4 V c).flushed 2 t
      = ((cfg4.win 2).blk t).view.read (Elt Ideal) (Cert.Gnn.project (V c main_v34) (V c main_arg6)) := by
  show (cfg4.win 2).cut (grid4.coords t) ((dat4 V c).after 2 t) = _
  rw [after4_2]
  unfold out4_2
  rw [View.canon_unit_zero zeros]
  simp only [View.ld_unit_zero (S := S10000x128) zeros, View.ld_unit_zero (S := S128x128) zeros]
  rw [Cert.Gnn.blockProduct4_eq]
  obtain ⟨e0, e1, e2, e3, e4⟩ := index_facts t
  funext j
  show k0_pay1 (F := Ideal) (iblk4 V c 0 t) (iblk4 V c 1 t) j
    = Cert.Gnn.project (V c main_v34) (V c main_arg6) (((cfg4.win 2).blk t).view.emb j)
  refine Cert.Gnn.blockProduct_eq_project _ _ _ _ j _ (fun k => ?_) (fun k => ?_)
  · show V c main_v34 (((cfg4.win 0).blk t).view.emb (Cert.Gnn.blockRow j k))
      = V c main_v34 (lidx_main_v0 (((cfg4.win 2).blk t).view.emb j) k)
    refine congrArg _ (funext fun a => Fin.ext ?_)
    match a with
    | ⟨0, _⟩ =>
      show win4_0.index t (0 : Fin 2) * 10000 + 1 * (j 0).val = win4_2.index t (0 : Fin 2) * 10000 + 1 * (j 0).val
      omega
    | ⟨1, _⟩ =>
      show win4_0.index t (1 : Fin 2) * 128 + 1 * k.val = k.val
      omega
  · show V c main_arg6 (((cfg4.win 1).blk t).view.emb (Cert.Gnn.blockCol j k))
      = V c main_arg6 (ridx_main_v0 (((cfg4.win 2).blk t).view.emb j) k)
    refine congrArg _ (funext fun a => Fin.ext ?_)
    match a with
    | ⟨0, _⟩ =>
      show win4_1.index t (0 : Fin 2) * 128 + 1 * k.val = k.val
      omega
    | ⟨1, _⟩ =>
      show win4_1.index t (1 : Fin 2) * 128 + 1 * (j 1).val = win4_2.index t (1 : Fin 2) * 128 + 1 * (j 1).val
      omega

/-- An entry is in point `t`'s block iff each coordinate is in the block's range. -/
theorem mem_blk (t : Fin cfg4.N) (i : S100000x128.Idx) :
    i ∈ ((cfg4.win 2).blk t).view.set ↔ ∀ a : Fin 2, win4_2.index t a * S10000x128.size a ≤ (i a).val
      ∧ (i a).val < win4_2.index t a * S10000x128.size a + S10000x128.size a := by
  show i ∈ ((View.whole main_v35).slice (win4_2.rect t)).set ↔ _
  rw [View.set_slice_whole, Rect.mem_set_unit]
  exact Iff.rfl

/-- The blocks tile the array: row `r` is in block `r / 10000`. -/
theorem cover (i : S100000x128.Idx) :
    ∃ t : Fin cfg4.N, (cfg4.win 2).flush t = true ∧ i ∈ ((cfg4.win 2).blk t).view.set := by
  have hi0 : (i 0).val < 100000 := (i 0).isLt
  have hi1 : (i 1).val < 128 := (i 1).isLt
  obtain ⟨t, ht⟩ := index_onto ⟨(i 0).val / 10000, by omega⟩
  have q0 : win4_2.index t (0 : Fin 2) = (i 0).val / 10000 := congrFun ht 0
  have q1 : win4_2.index t (1 : Fin 2) = 0 := congrFun ht 1
  refine ⟨t, flush4_2 t, ?_⟩
  rw [mem_blk]
  intro a
  match a with
  | ⟨0, _⟩ =>
    show win4_2.index t (0 : Fin 2) * 10000 ≤ (i 0).val ∧ (i 0).val < win4_2.index t (0 : Fin 2) * 10000 + 10000
    omega
  | ⟨1, _⟩ =>
    show win4_2.index t (1 : Fin 2) * 128 ≤ (i 1).val ∧ (i 1).val < win4_2.index t (1 : Fin 2) * 128 + 128
    omega

/-- The output array after the region: the whole product of the feature array and the weight it found. -/
theorem final (c : Dev nD) :
    (dat4 V c).arrAt 2 cfg4.N = Cert.Gnn.project (V c main_v34) (V c main_arg6) :=
  (dat4 V c).arrAt_eq_of_cover 2 _ (fun t _ => flushed_eq V c t) cover

end Cert.KernelIdeal.Region4

end
-- ==== Proof.Region5.lean ====
/-
  What the third normalising region leaves in its output array.

  The region runs the normalising kernel at twenty grid points; point `t` reads rows `5000 t … 5000 t + 4999` of the
  summed messages and of the degree column, the whole bias row, and writes the same rows of the output. The degree
  column is the degree vector re-laid as `[N, 1]` and the bias row the bias vector re-laid as `[1, 128]`, so entry
  `(p, q)` of block `t` divides by the degree of node `5000 t + p` and adds the bias of feature `q`: the reference's
  expression read through the block. The twenty blocks tile the array (row `r` lies in block `r / 5000`), so the
  array ends holding the reference's expression of the sums, the degrees and the bias.
-/
import proofs.«180740_j23252952940857_1_alg».proof.Proof.Gen.KernelIdeal.Frame
import proofs.«180740_j23252952940857_1_alg».proof.Proof.FinalizeBlock
import Idealize.ShloMosaic.Lib.Pipeline.Value

set_option maxRecDepth 16384

noncomputable section

namespace Cert.KernelIdeal.Region5

open Idealize.ShloMosaic Idealize.ShloMosaic.TcCoe Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem zeros : (![0, 0] : Fin 2 → Nat) = fun _ => 0 := funext fun a => by fin_cases a <;> rfl

/-- The printed index maps over the grid: the sums', the degrees' and the output's blocks are block `t` of the rows;
    every window has one block of columns; the bias row is its only block. -/
theorem index_facts : ∀ t : Fin cfg5.N, win5_0.index t (0 : Fin 2) = win5_3.index t (0 : Fin 2)
    ∧ win5_0.index t (1 : Fin 2) = 0
    ∧ win5_1.index t (0 : Fin 2) = win5_3.index t (0 : Fin 2)
    ∧ win5_1.index t (1 : Fin 2) = 0
    ∧ win5_2.index t (0 : Fin 2) = 0
    ∧ win5_2.index t (1 : Fin 2) = 0
    ∧ win5_3.index t (1 : Fin 2) = 0 :=
  (by decide +kernel : ∀ t : Fin grid5.N, _)

/-- Every block of rows is some point's. -/
theorem index_onto : ∀ q0 : Fin 20, ∃ t : Fin cfg5.N, win5_3.index t = ![q0.val, 0] :=
  (by decide +kernel : ∀ q0 : Fin 20, ∃ t : Fin grid5.N, win5_3.index t = ![q0.val, 0])

/-- What point `t` writes back is block `t` of the reference's expression of the arrays the region finds, the degree
    column being `D` re-laid and the bias row `B` re-laid. -/
theorem flushed_eq (c : Dev nD) (D : Cert.Gnn.Arr Cert.ReferenceIdeal.S100000) (B : Cert.Gnn.Arr Cert.ReferenceIdeal.S128)
    (hD : V c main_v46 = shapeCast S100000x1 D shapeCasts_S100000_S100000x1)
    (hB : V c main_v47 = shapeCast S1x128 B shapeCasts_S128_S1x128) (t : Fin cfg5.N) :
    (dat5 V c).flushed 3 t
      = ((cfg5.win 3).blk t).view.read (Elt Ideal) (Cert.Gnn.finish (V c main_v45) D B) := by
  show (cfg5.win 3).cut (grid5.coords t) ((dat5 V c).after 3 t) = _
  rw [after5_3]
  unfold out5_3
  rw [View.canon_unit_zero zeros]
  simp only [View.ld_unit_zero (S := S5000x128) zeros, View.ld_unit_zero (S := S5000x1) zeros, View.ld_unit_zero (S := S1x128) zeros]
  obtain ⟨e0, e1, e2, e3, e4, e5, e6⟩ := index_facts t
  funext j
  show k1_pay1 (F := Ideal) (iblk5 V c 0 t) (iblk5 V c 1 t) (iblk5 V c 2 t) j
    = Cert.Gnn.finish (V c main_v45) D B (((cfg5.win 3).blk t).view.emb j)
  refine Cert.Gnn.blockFinish_eq_finish _ _ _ _ _ _ j _ ?_ ?_ ?_
  · show V c main_v45 (((cfg5.win 0).blk t).view.emb j) = V c main_v45 (((cfg5.win 3).blk t).view.emb j)
    refine congrArg _ (funext fun a => Fin.ext ?_)
    match a with
    | ⟨0, _⟩ =>
      show win5_0.index t (0 : Fin 2) * 5000 + 1 * (j 0).val = win5_3.index t (0 : Fin 2) * 5000 + 1 * (j 0).val
      omega
    | ⟨1, _⟩ =>
      show win5_0.index t (1 : Fin 2) * 128 + 1 * (j 1).val = win5_3.index t (1 : Fin 2) * 128 + 1 * (j 1).val
      omega
  · show V c main_v46 (((cfg5.win 1).blk t).view.emb (Cert.Gnn.blockDeg j))
      = D (Cert.Gnn.nodeOf (((cfg5.win 3).blk t).view.emb j))
    rw [hD]
    refine shapeCast_apply D _ _ _ ?_
    rw [Shape.rowMajor_val_one, Shape.rowMajor_val_two]
    show win5_3.index t (0 : Fin 2) * 5000 + 1 * (j 0).val
      = (win5_1.index t (0 : Fin 2) * 5000 + 1 * (j 0).val) * 1 + (win5_1.index t (1 : Fin 2) * 1 + 1 * 0)
    omega
  · show V c main_v47 (((cfg5.win 2).blk t).view.emb (Cert.Gnn.blockBias j))
      = B (Cert.Gnn.featOf (((cfg5.win 3).blk t).view.emb j))
    rw [hB]
    refine shapeCast_apply B _ _ _ ?_
    rw [Shape.rowMajor_val_one, Shape.rowMajor_val_two]
    show win5_3.index t (1 : Fin 2) * 128 + 1 * (j 1).val
      = (win5_2.index t (0 : Fin 2) * 1 + 1 * 0) * 128 + (win5_2.index t (1 : Fin 2) * 128 + 1 * (j 1).val)
    omega

/-- An entry is in point `t`'s block iff each coordinate is in the block's range. -/
theorem mem_blk (t : Fin cfg5.N) (i : S100000x128.Idx) :
    i ∈ ((cfg5.win 3).blk t).view.set ↔ ∀ a : Fin 2, win5_3.index t a * S5000x128.size a ≤ (i a).val
      ∧ (i a).val < win5_3.index t a * S5000x128.size a + S5000x128.size a := by
  show i ∈ ((View.whole main_v48).slice (win5_3.rect t)).set ↔ _
  rw [View.set_slice_whole, Rect.mem_set_unit]
  exact Iff.rfl

/-- The blocks tile the array: row `r` is in block `r / 5000`. -/
theorem cover (i : S100000x128.Idx) :
    ∃ t : Fin cfg5.N, (cfg5.win 3).flush t = true ∧ i ∈ ((cfg5.win 3).blk t).view.set := by
  have hi0 : (i 0).val < 100000 := (i 0).isLt
  have hi1 : (i 1).val < 128 := (i 1).isLt
  obtain ⟨t, ht⟩ := index_onto ⟨(i 0).val / 5000, by omega⟩
  have q0 : win5_3.index t (0 : Fin 2) = (i 0).val / 5000 := congrFun ht 0
  have q1 : win5_3.index t (1 : Fin 2) = 0 := congrFun ht 1
  refine ⟨t, flush5_3 t, ?_⟩
  rw [mem_blk]
  intro a
  match a with
  | ⟨0, _⟩ =>
    show win5_3.index t (0 : Fin 2) * 5000 ≤ (i 0).val ∧ (i 0).val < win5_3.index t (0 : Fin 2) * 5000 + 5000
    omega
  | ⟨1, _⟩ =>
    show win5_3.index t (1 : Fin 2) * 128 ≤ (i 1).val ∧ (i 1).val < win5_3.index t (1 : Fin 2) * 128 + 128
    omega

/-- The output array after the region: the reference's expression of the sums it found, the degrees and the bias. -/
theorem final (c : Dev nD) (D : Cert.Gnn.Arr Cert.ReferenceIdeal.S100000) (B : Cert.Gnn.Arr Cert.ReferenceIdeal.S128)
    (hD : V c main_v46 = shapeCast S100000x1 D shapeCasts_S100000_S100000x1)
    (hB : V c main_v47 = shapeCast S1x128 B shapeCasts_S128_S1x128) :
    (dat5 V c).arrAt 3 cfg5.N = Cert.Gnn.finish (V c main_v45) D B :=
  (dat5 V c).arrAt_eq_of_cover 3 _ (fun t _ => flushed_eq V c D B hD hB t) cover

end Cert.KernelIdeal.Region5

end
-- ==== Proof.Region6.lean ====
/-
  What the fourth projection region leaves in its output array.

  The region runs the projection kernel at ten grid points; point `t` reads rows `10000 t … 10000 t + 9999` of the
  feature array and the whole weight, and writes the same rows of the output. Each written block is, entry by
  entry, the whole product `X · W` read through the block (the block's row `p` is the array's row `10000 t + p`, its
  weight is the weight), and the ten blocks tile the array: row `r` lies in block `r / 10000`. So the array ends
  holding `X · W`.
-/
import proofs.«180740_j23252952940857_1_alg».proof.Proof.Gen.KernelIdeal.Frame
import proofs.«180740_j23252952940857_1_alg».proof.Proof.MatmulBlock
import Idealize.ShloMosaic.Lib.Pipeline.Value

set_option maxRecDepth 16384

noncomputable section

namespace Cert.KernelIdeal.Region6

open Idealize.ShloMosaic Idealize.ShloMosaic.TcCoe Idealize.SL.Sem
open Idealize.ShloMosaic.Pipeline (Dat Cfg Window)
open Cert.KernelIdeal Cert.KernelIdeal.Gen Cert.ReferenceIdeal.Read

variable (V : (c : Dev nD) → (b : Ref sig .tc) → Buf (Elt Ideal) ((c : Thread nD τ).loc b))

theorem zeros : (![0, 0] : Fin 2 → Nat) = fun _ => 0 := funext fun a => by fin_cases a <;> rfl

/-- The printed index maps over the grid: the features' block and the output's block are block `t` of the rows and
    the only block of the columns; the weight's is its only block. -/
theorem index_facts : ∀ t : Fin cfg6.N, win6_0.index t (0 : Fin 2) = win6_2.index t (0 : Fin 2)
    ∧ win6_0.index t (1 : Fin 2) = 0
    ∧ win6_1.index t (0 : Fin 2) = 0
    ∧ win6_1.index t (1 : Fin 2) = 0
    ∧ win6_2.index t (1 : Fin 2) = 0 :=
  (by decide +kernel : ∀ t : Fin grid6.N, _)

/-- Every block of rows is some point's. -/
theorem index_onto : ∀ q0 : Fin 10, ∃ t : Fin cfg6.N, win6_2.index t = ![q0.val, 0] :=
  (by decide +kernel : ∀ q0 : Fin 10, ∃ t : Fin grid6.N, win6_2.index t = ![q0.val, 0])

/-- What point `t` writes back is block `t` of the whole product of the arrays the region finds. -/
theorem flushed_eq (c : Dev nD) (t : Fin cfg6.N) :
    (dat6 V c).flushed 2 t
      = ((cfg6.win 2).blk t).view.read (Elt Ideal) (Cert.Gnn.project (V c main_v20) (V c main_arg8)) := by
  show (cfg6.win 2).cut (grid6.coords t) ((dat6 V c).after 2 t) = _
  rw [after6_2]
  unfold out6_2
  rw [View.canon_unit_zero zeros]
  simp only [View.ld_unit_zero (S := S10000x128) zeros, View.ld_unit_zero (S := S128x128) zeros]
  rw [Cert.Gnn.blockProduct6_eq]
  obtain ⟨e0, e1, e2, e3, e4⟩ := index_facts t
  funext j
  show k0_pay1 (F := Ideal) (iblk6 V c 0 t) (iblk6 V c 1 t) j
    = Cert.Gnn.project (V c main_v20) (V c main_arg8) (((cfg6.win 2).blk t).view.emb j)
  refine Cert.Gnn.blockProduct_eq_project _ _ _ _ j _ (fun k => ?_) (fun k => ?_)
  · show V c main_v20 (((cfg6.win 0).blk t).view.emb (Cert.Gnn.blockRow j k))
      = V c main_v20 (lidx_main_v0 (((cfg6.win 2).blk t).view.emb j) k)
    refine congrArg _ (funext fun a => Fin.ext ?_)
    match a with
    | ⟨0, _⟩ =>
      show win6_0.index t (0 : Fin 2) * 10000 + 1 * (j 0).val = win6_2.index t (0 : Fin 2) * 10000 + 1 * (j 0).val
      omega
    | ⟨1, _⟩ =>
      show win6_0.index t (1 : Fin 2) * 128 + 1 * k.val = k.val
      omega
  · show V c main_arg8 (((cfg6.win 1).blk t).view.emb (Cert.Gnn.blockCol j k))
      = V c main_arg8 (ridx_main_v0 (((cfg6.win 2).blk t).view.emb j) k)
    refine congrArg _ (funext fun a => Fin.ext ?_)
    match a with
    | ⟨0, _⟩ =>
      show win6_1.index t (0 : Fin 2) * 128 + 1 * k.val = k.val
      omega
    | ⟨1, _⟩ =>
      show win6_1.index t (1 : Fin 2) * 128 + 1 * (j 1).val = win6_2.index t (1 : Fin 2) * 128 + 1 * (j 1).val
      omega

/-- An entry is in point `t`'s block iff each coordinate is in the block's range. -/
theorem mem_blk (t : Fin cfg6.N) (i : S100000x128.Idx) :
    i ∈ ((cfg6.win 2).blk t).view.set ↔ ∀ a : Fin 2, win6_2.index t a * S10000x128.size a ≤ (i a).val
      ∧ (i a).val < win6_2.index t a * S10000x128.size a + S10000x128.size a := by
  show i ∈ ((View.whole main_v49).slice (win6_2.rect t)).set ↔ _
  rw [View.set_slice_whole, Rect.mem_set_unit]
  exact Iff.rfl

/-- The blocks tile the array: row `r` is in block `r / 10000`. -/
theorem cover (i : S100000x128.Idx) :
    ∃ t : Fin cfg6.N, (cfg6.win 2).flush t = true ∧ i ∈ ((cfg6.win 2).blk t).view.set := by
  have hi0 : (i 0).val < 100000 := (i 0).isLt
  have hi1 : (i 1).val < 128 := (i 1).isLt
  obtain ⟨t, ht⟩ := index_onto ⟨(i 0).val / 10000, by omega⟩
  have q0 : win6_2.index t (0 : Fin 2) = (i 0).val / 10000 := congrFun ht 0
  have q1 : win6_2.index t (1 : Fin 2) = 0 := congrFun ht 1
  refine ⟨t, flush6_2 t, ?_⟩
  rw [mem_blk]
  intro a
  match a with
  | ⟨0, _⟩ =>
    show win6_2.index t (0 : Fin 2) * 10000 ≤ (i 0).val ∧ (i 0).val < win6_2.index t (0 : Fin 2) * 10000 + 10000
    omega
  | ⟨1, _⟩ =>
    show win6_2.index t (1 : Fin 2) * 128 ≤ (i 1).val ∧ (i 1).val < win6_2.index t (1 : Fin 2) * 128 + 128
    omega

/-- The output array after the region: the whole product of the feature array and the weight it found. -/
theorem final (c : Dev nD) :
    (dat6 V c).arrAt 2 cfg6.N = Cert.Gnn.project (V c main_v20) (V c main_arg8) :=
  (dat6 V c).arrAt_eq_of_cover 2 _ (fun t _ => flushed_eq V c t) cover

end Cert.KernelIdeal.Region6

end
-- ==== Proof.Region7.lean ====
/-
  What the fourth normalising region leaves in its output array.

  The region runs the normalising kernel at twenty grid points; point `t` reads rows `5000 t … 5000 t + 4999` of the
  summed messages and of the degree column, the whole bias row, and writes the same rows of the output. The degree
  column is the degree vector re-laid as `[N, 1]` and the bias row the bias vector re-laid as `[1, 128]`, so entry
  `(p, q)` of block `t` divides by the degree of node `5000 t + p` and adds the bias of feature `q`: the reference's
  expression read through the block. The twenty blocks tile the array (row `r` lies in block `r / 5000`), so the
  array ends holding the reference's expression of the sums, the degrees and the bias.
-/
import proofs.«180740_j23252952940857_1_alg».proof.Proof.Gen.KernelIdeal.Frame
import proofs.«180740_j23252952940857_1_alg».proof.Proof.FinalizeBlock
import Idealize.ShloMosaic.Lib.Pipeline.Value

set_option maxRecDepth 16384

noncomputable section

namespace Cert.KernelIdeal.Region7

open Idealize.ShloMosaic Idealize.ShloMosaic.TcCoe Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem zeros : (![0, 0] : Fin 2 → Nat) = fun _ => 0 := funext fun a => by fin_cases a <;> rfl

/-- The printed index maps over the grid: the sums', the degrees' and the output's blocks are block `t` of the rows;
    every window has one block of columns; the bias row is its only block. -/
theorem index_facts : ∀ t : Fin cfg7.N, win7_0.index t (0 : Fin 2) = win7_3.index t (0 : Fin 2)
    ∧ win7_0.index t (1 : Fin 2) = 0
    ∧ win7_1.index t (0 : Fin 2) = win7_3.index t (0 : Fin 2)
    ∧ win7_1.index t (1 : Fin 2) = 0
    ∧ win7_2.index t (0 : Fin 2) = 0
    ∧ win7_2.index t (1 : Fin 2) = 0
    ∧ win7_3.index t (1 : Fin 2) = 0 :=
  (by decide +kernel : ∀ t : Fin grid7.N, _)

/-- Every block of rows is some point's. -/
theorem index_onto : ∀ q0 : Fin 20, ∃ t : Fin cfg7.N, win7_3.index t = ![q0.val, 0] :=
  (by decide +kernel : ∀ q0 : Fin 20, ∃ t : Fin grid7.N, win7_3.index t = ![q0.val, 0])

/-- What point `t` writes back is block `t` of the reference's expression of the arrays the region finds, the degree
    column being `D` re-laid and the bias row `B` re-laid. -/
theorem flushed_eq (c : Dev nD) (D : Cert.Gnn.Arr Cert.ReferenceIdeal.S100000) (B : Cert.Gnn.Arr Cert.ReferenceIdeal.S128)
    (hD : V c main_v60 = shapeCast S100000x1 D shapeCasts_S100000_S100000x1)
    (hB : V c main_v61 = shapeCast S1x128 B shapeCasts_S128_S1x128) (t : Fin cfg7.N) :
    (dat7 V c).flushed 3 t
      = ((cfg7.win 3).blk t).view.read (Elt Ideal) (Cert.Gnn.finish (V c main_v59) D B) := by
  show (cfg7.win 3).cut (grid7.coords t) ((dat7 V c).after 3 t) = _
  rw [after7_3]
  unfold out7_3
  rw [View.canon_unit_zero zeros]
  simp only [View.ld_unit_zero (S := S5000x128) zeros, View.ld_unit_zero (S := S5000x1) zeros, View.ld_unit_zero (S := S1x128) zeros]
  obtain ⟨e0, e1, e2, e3, e4, e5, e6⟩ := index_facts t
  funext j
  show k1_pay1 (F := Ideal) (iblk7 V c 0 t) (iblk7 V c 1 t) (iblk7 V c 2 t) j
    = Cert.Gnn.finish (V c main_v59) D B (((cfg7.win 3).blk t).view.emb j)
  refine Cert.Gnn.blockFinish_eq_finish _ _ _ _ _ _ j _ ?_ ?_ ?_
  · show V c main_v59 (((cfg7.win 0).blk t).view.emb j) = V c main_v59 (((cfg7.win 3).blk t).view.emb j)
    refine congrArg _ (funext fun a => Fin.ext ?_)
    match a with
    | ⟨0, _⟩ =>
      show win7_0.index t (0 : Fin 2) * 5000 + 1 * (j 0).val = win7_3.index t (0 : Fin 2) * 5000 + 1 * (j 0).val
      omega
    | ⟨1, _⟩ =>
      show win7_0.index t (1 : Fin 2) * 128 + 1 * (j 1).val = win7_3.index t (1 : Fin 2) * 128 + 1 * (j 1).val
      omega
  · show V c main_v60 (((cfg7.win 1).blk t).view.emb (Cert.Gnn.blockDeg j))
      = D (Cert.Gnn.nodeOf (((cfg7.win 3).blk t).view.emb j))
    rw [hD]
    refine shapeCast_apply D _ _ _ ?_
    rw [Shape.rowMajor_val_one, Shape.rowMajor_val_two]
    show win7_3.index t (0 : Fin 2) * 5000 + 1 * (j 0).val
      = (win7_1.index t (0 : Fin 2) * 5000 + 1 * (j 0).val) * 1 + (win7_1.index t (1 : Fin 2) * 1 + 1 * 0)
    omega
  · show V c main_v61 (((cfg7.win 2).blk t).view.emb (Cert.Gnn.blockBias j))
      = B (Cert.Gnn.featOf (((cfg7.win 3).blk t).view.emb j))
    rw [hB]
    refine shapeCast_apply B _ _ _ ?_
    rw [Shape.rowMajor_val_one, Shape.rowMajor_val_two]
    show win7_3.index t (1 : Fin 2) * 128 + 1 * (j 1).val
      = (win7_2.index t (0 : Fin 2) * 1 + 1 * 0) * 128 + (win7_2.index t (1 : Fin 2) * 128 + 1 * (j 1).val)
    omega

/-- An entry is in point `t`'s block iff each coordinate is in the block's range. -/
theorem mem_blk (t : Fin cfg7.N) (i : S100000x128.Idx) :
    i ∈ ((cfg7.win 3).blk t).view.set ↔ ∀ a : Fin 2, win7_3.index t a * S5000x128.size a ≤ (i a).val
      ∧ (i a).val < win7_3.index t a * S5000x128.size a + S5000x128.size a := by
  show i ∈ ((View.whole main_v62).slice (win7_3.rect t)).set ↔ _
  rw [View.set_slice_whole, Rect.mem_set_unit]
  exact Iff.rfl

/-- The blocks tile the array: row `r` is in block `r / 5000`. -/
theorem cover (i : S100000x128.Idx) :
    ∃ t : Fin cfg7.N, (cfg7.win 3).flush t = true ∧ i ∈ ((cfg7.win 3).blk t).view.set := by
  have hi0 : (i 0).val < 100000 := (i 0).isLt
  have hi1 : (i 1).val < 128 := (i 1).isLt
  obtain ⟨t, ht⟩ := index_onto ⟨(i 0).val / 5000, by omega⟩
  have q0 : win7_3.index t (0 : Fin 2) = (i 0).val / 5000 := congrFun ht 0
  have q1 : win7_3.index t (1 : Fin 2) = 0 := congrFun ht 1
  refine ⟨t, flush7_3 t, ?_⟩
  rw [mem_blk]
  intro a
  match a with
  | ⟨0, _⟩ =>
    show win7_3.index t (0 : Fin 2) * 5000 ≤ (i 0).val ∧ (i 0).val < win7_3.index t (0 : Fin 2) * 5000 + 5000
    omega
  | ⟨1, _⟩ =>
    show win7_3.index t (1 : Fin 2) * 128 ≤ (i 1).val ∧ (i 1).val < win7_3.index t (1 : Fin 2) * 128 + 128
    omega

/-- The output array after the region: the reference's expression of the sums it found, the degrees and the bias. -/
theorem final (c : Dev nD) (D : Cert.Gnn.Arr Cert.ReferenceIdeal.S100000) (B : Cert.Gnn.Arr Cert.ReferenceIdeal.S128)
    (hD : V c main_v60 = shapeCast S100000x1 D shapeCasts_S100000_S100000x1)
    (hB : V c main_v61 = shapeCast S1x128 B shapeCasts_S128_S1x128) :
    (dat7 V c).arrAt 3 cfg7.N = Cert.Gnn.finish (V c main_v59) D B :=
  (dat7 V c).arrAt_eq_of_cover 3 _ (fun t _ => flushed_eq V c D B hD hB t) cover

end Cert.KernelIdeal.Region7

end
-- ==== Proof.Trace.lean ====
/-
  The kernel program's result, traced through its segments.

  Boundary by boundary, each buffer the program writes is named as a function of the argument arrays. A projection
  region leaves the product of the features it finds with its weight; the host stretch after it gathers the projected
  rows along the edges and sums them at their destinations, and re-lays the degree vector and the bias for the kernel
  that follows; the normalising region leaves the reference's expression of those three. That is one graph
  convolution, and the program does four: the two first-layer ones from the argument features, the two second-layer
  ones from the first layer's outputs (each side reading the other's). The last stretch stacks the two final arrays.
  The degree vectors are computed once, before the first region, and read by both layers.
-/
import proofs.«180740_j23252952940857_1_alg».proof.Proof.TraceKept
import proofs.«180740_j23252952940857_1_alg».proof.Proof.Region0
import proofs.«180740_j23252952940857_1_alg».proof.Proof.Region1
import proofs.«180740_j23252952940857_1_alg».proof.Proof.Region2
import proofs.«180740_j23252952940857_1_alg».proof.Proof.Region3
import proofs.«180740_j23252952940857_1_alg».proof.Proof.Region4
import proofs.«180740_j23252952940857_1_alg».proof.Proof.Region5
import proofs.«180740_j23252952940857_1_alg».proof.Proof.Region6
import proofs.«180740_j23252952940857_1_alg».proof.Proof.Region7
import Idealize.ShloMosaic.Lib.StableHlo.Run

set_option maxRecDepth 16384

noncomputable section

namespace Cert.KernelIdeal.Trace

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-! ## The argument arrays and the four layers, by name -/

abbrev x0 (c : Dev nD) : Cert.Gnn.Arr Cert.ReferenceIdeal.S100000x128 := m ((c : Thread nD τ).loc main_arg0)
abbrev x1 (c : Dev nD) : Cert.Gnn.Arr Cert.ReferenceIdeal.S100000x128 := m ((c : Thread nD τ).loc main_arg1)
abbrev x2 (c : Dev nD) : Cert.Gnn.Arr Cert.ReferenceIdeal.S128x128 := m ((c : Thread nD τ).loc main_arg2)
abbrev x3 (c : Dev nD) : Cert.Gnn.Arr Cert.ReferenceIdeal.S128 := m ((c : Thread nD τ).loc main_arg3)
abbrev x4 (c : Dev nD) : Cert.Gnn.Arr Cert.ReferenceIdeal.S128x128 := m ((c : Thread nD τ).loc main_arg4)
abbrev x5 (c : Dev nD) : Cert.Gnn.Arr Cert.ReferenceIdeal.S128 := m ((c : Thread nD τ).loc main_arg5)
abbrev x6 (c : Dev nD) : Cert.Gnn.Arr Cert.ReferenceIdeal.S128x128 := m ((c : Thread nD τ).loc main_arg6)
abbrev x7 (c : Dev nD) : Cert.Gnn.Arr Cert.ReferenceIdeal.S128 := m ((c : Thread nD τ).loc main_arg7)
abbrev x8 (c : Dev nD) : Cert.Gnn.Arr Cert.ReferenceIdeal.S128x128 := m ((c : Thread nD τ).loc main_arg8)
abbrev x9 (c : Dev nD) : Cert.Gnn.Arr Cert.ReferenceIdeal.S128 := m ((c : Thread nD τ).loc main_arg9)
abbrev x10 (c : Dev nD) : Cert.Gnn.IArr Cert.ReferenceIdeal.S1000000 := m ((c : Thread nD τ).loc main_arg10)
abbrev x11 (c : Dev nD) : Cert.Gnn.IArr Cert.ReferenceIdeal.S1000000 := m ((c : Thread nD τ).loc main_arg11)
abbrev x12 (c : Dev nD) : Cert.Gnn.IArr Cert.ReferenceIdeal.S1000000 := m ((c : Thread nD τ).loc main_arg12)
abbrev x13 (c : Dev nD) : Cert.Gnn.IArr Cert.ReferenceIdeal.S1000000 := m ((c : Thread nD τ).loc main_arg13)

/-- The items' first-layer features: the convolution of the users' features along the user→item edges. -/
abbrev h1 (c : Dev nD) := Cert.Gnn.conv (x0 m c) (x2 m c) (x3 m c) (x10 m c) (x11 m c)
/-- The users' first-layer features: the convolution of the items' features along the item→user edges. -/
abbrev h2 (c : Dev nD) := Cert.Gnn.conv (x1 m c) (x4 m c) (x5 m c) (x12 m c) (x13 m c)
/-- The items' second-layer features, from the users' first-layer ones. -/
abbrev h3 (c : Dev nD) := Cert.Gnn.conv (h2 m c) (x6 m c) (x7 m c) (x10 m c) (x11 m c)
/-- The users' second-layer features, from the items' first-layer ones. -/
abbrev h4 (c : Dev nD) := Cert.Gnn.conv (h1 m c) (x8 m c) (x9 m c) (x12 m c) (x13 m c)

/-! ## The degrees, computed once -/

/-- The in-degrees of the items (the user→item edges' destinations). -/
theorem degree_ui (c : Dev nD) : W1 m ρ c (Proc.devRef .tc main_v3) = Cert.Gnn.degree (x11 m c) := by
  show StableHlo.after hostOps0 (W0 m ρ c) (Proc.devRef .tc main_v3) = _
  unfold hostOps0
  after_results_simp
  rfl
/-- The in-degrees of the users (the item→user edges' destinations). -/
theorem degree_iu (c : Dev nD) : W1 m ρ c (Proc.devRef .tc main_v6) = Cert.Gnn.degree (x13 m c) := by
  show StableHlo.after hostOps0 (W0 m ρ c) (Proc.devRef .tc main_v6) = _
  unfold hostOps0
  after_results_simp
  rfl

/-! ## Convolution 1 -/

/-- The projection region's output: the features times the weight. -/
theorem projection_1 (c : Dev nD) : W2 m ρ c (Proc.devRef .tc main_v7) = Cert.Gnn.project (x0 m c) (x2 m c) :=
  (W2_arr m ρ c 2).trans ((Cert.KernelIdeal.Region0.final (V1 m ρ) c).trans (by
    show Cert.Gnn.project (W1 m ρ c (Proc.devRef .tc main_arg0)) (W1 m ρ c (Proc.devRef .tc main_arg2)) = _
    rw [kept_main_arg0_1 m ρ c, kept_main_arg2_1 m ρ c]))

/-- The host stretch after it: the messages gathered along the edges and summed at their destinations. -/
theorem messages_1 (c : Dev nD) : W3 m ρ c (Proc.devRef .tc main_v17) = Cert.Gnn.aggregate (Cert.Gnn.project (x0 m c) (x2 m c)) (x10 m c) (x11 m c) := by
  show StableHlo.after hostOps1 (W2 m ρ c) (Proc.devRef .tc main_v17) = _
  unfold hostOps1
  after_results_simp
  rw [projection_1 m ρ c, kept_main_arg10_2 m ρ c, kept_main_arg11_2 m ρ c]
  rfl

/-- The degree vector re-laid as a column for the normalising kernel. -/
theorem degreeColumn_1 (c : Dev nD) :
    W3 m ρ c (Proc.devRef .tc main_v18) = shapeCast S100000x1 (Cert.Gnn.degree (x11 m c)) shapeCasts_S100000_S100000x1 := by
  show StableHlo.after hostOps1 (W2 m ρ c) (Proc.devRef .tc main_v18) = _
  unfold hostOps1
  after_results_simp
  rw [kept_main_v3_2 m ρ c, degree_ui m ρ c]
  rfl

/-- The bias re-laid as a row. -/
theorem biasRow_1 (c : Dev nD) :
    W3 m ρ c (Proc.devRef .tc main_v19) = shapeCast S1x128 (x3 m c) shapeCasts_S128_S1x128 := by
  show StableHlo.after hostOps1 (W2 m ρ c) (Proc.devRef .tc main_v19) = _
  unfold hostOps1
  after_results_simp
  rw [kept_main_arg3_2 m ρ c]
  rfl

/-- The normalising region's output: the whole convolution. -/
theorem layer_1 (c : Dev nD) : W4 m ρ c (Proc.devRef .tc main_v20) = h1 m c :=
  (W4_arr m ρ c 3).trans ((Cert.KernelIdeal.Region1.final (V3 m ρ) c (Cert.Gnn.degree (x11 m c)) (x3 m c)
      (degreeColumn_1 m ρ c) (biasRow_1 m ρ c)).trans (by
    show Cert.Gnn.finish (W3 m ρ c (Proc.devRef .tc main_v17)) _ _ = _
    rw [messages_1 m ρ c]
    rfl))

/-! ## Convolution 2 -/

/-- The projection region's output: the features times the weight. -/
theorem projection_2 (c : Dev nD) : W5 m ρ c (Proc.devRef .tc main_v21) = Cert.Gnn.project (x1 m c) (x4 m c) :=
  (W5_arr m ρ c 2).trans ((Cert.KernelIdeal.Region2.final (V4 m ρ) c).trans (by
    show Cert.Gnn.project (W4 m ρ c (Proc.devRef .tc main_arg1)) (W4 m ρ c (Proc.devRef .tc main_arg4)) = _
    rw [kept_main_arg1_4 m ρ c, kept_main_arg4_4 m ρ c]))

/-- The host stretch after it: the messages gathered along the edges and summed at their destinations. -/
theorem messages_2 (c : Dev nD) : W6 m ρ c (Proc.devRef .tc main_v31) = Cert.Gnn.aggregate (Cert.Gnn.project (x1 m c) (x4 m c)) (x12 m c) (x13 m c) := by
  show StableHlo.after hostOps3 (W5 m ρ c) (Proc.devRef .tc main_v31) = _
  unfold hostOps3
  after_results_simp
  rw [projection_2 m ρ c, kept_main_arg12_5 m ρ c, kept_main_arg13_5 m ρ c]
  rfl

/-- The degree vector re-laid as a column for the normalising kernel. -/
theorem degreeColumn_2 (c : Dev nD) :
    W6 m ρ c (Proc.devRef .tc main_v32) = shapeCast S100000x1 (Cert.Gnn.degree (x13 m c)) shapeCasts_S100000_S100000x1 := by
  show StableHlo.after hostOps3 (W5 m ρ c) (Proc.devRef .tc main_v32) = _
  unfold hostOps3
  after_results_simp
  rw [kept_main_v6_5 m ρ c, degree_iu m ρ c]
  rfl

/-- The bias re-laid as a row. -/
theorem biasRow_2 (c : Dev nD) :
    W6 m ρ c (Proc.devRef .tc main_v33) = shapeCast S1x128 (x5 m c) shapeCasts_S128_S1x128 := by
  show StableHlo.after hostOps3 (W5 m ρ c) (Proc.devRef .tc main_v33) = _
  unfold hostOps3
  after_results_simp
  rw [kept_main_arg5_5 m ρ c]
  rfl

/-- The normalising region's output: the whole convolution. -/
theorem layer_2 (c : Dev nD) : W7 m ρ c (Proc.devRef .tc main_v34) = h2 m c :=
  (W7_arr m ρ c 3).trans ((Cert.KernelIdeal.Region3.final (V6 m ρ) c (Cert.Gnn.degree (x13 m c)) (x5 m c)
      (degreeColumn_2 m ρ c) (biasRow_2 m ρ c)).trans (by
    show Cert.Gnn.finish (W6 m ρ c (Proc.devRef .tc main_v31)) _ _ = _
    rw [messages_2 m ρ c]
    rfl))

/-! ## Convolution 3 -/

/-- The projection region's output: the features times the weight. -/
theorem projection_3 (c : Dev nD) : W8 m ρ c (Proc.devRef .tc main_v35) = Cert.Gnn.project (h2 m c) (x6 m c) :=
  (W8_arr m ρ c 2).trans ((Cert.KernelIdeal.Region4.final (V7 m ρ) c).trans (by
    show Cert.Gnn.project (W7 m ρ c (Proc.devRef .tc main_v34)) (W7 m ρ c (Proc.devRef .tc main_arg6)) = _
    rw [layer_2 m ρ c, kept_main_arg6_7 m ρ c]))

/-- The host stretch after it: the messages gathered along the edges and summed at their destinations. -/
theorem messages_3 (c : Dev nD) : W9 m ρ c (Proc.devRef .tc main_v45) = Cert.Gnn.aggregate (Cert.Gnn.project (h2 m c) (x6 m c)) (x10 m c) (x11 m c) := by
  show StableHlo.after hostOps5 (W8 m ρ c) (Proc.devRef .tc main_v45) = _
  unfold hostOps5
  after_results_simp
  rw [projection_3 m ρ c, kept_main_arg10_8 m ρ c, kept_main_arg11_8 m ρ c]
  rfl

/-- The degree vector re-laid as a column for the normalising kernel. -/
theorem degreeColumn_3 (c : Dev nD) :
    W9 m ρ c (Proc.devRef .tc main_v46) = shapeCast S100000x1 (Cert.Gnn.degree (x11 m c)) shapeCasts_S100000_S100000x1 := by
  show StableHlo.after hostOps5 (W8 m ρ c) (Proc.devRef .tc main_v46) = _
  unfold hostOps5
  after_results_simp
  rw [kept_main_v3_8 m ρ c, degree_ui m ρ c]
  rfl

/-- The bias re-laid as a row. -/
theorem biasRow_3 (c : Dev nD) :
    W9 m ρ c (Proc.devRef .tc main_v47) = shapeCast S1x128 (x7 m c) shapeCasts_S128_S1x128 := by
  show StableHlo.after hostOps5 (W8 m ρ c) (Proc.devRef .tc main_v47) = _
  unfold hostOps5
  after_results_simp
  rw [kept_main_arg7_8 m ρ c]
  rfl

/-- The normalising region's output: the whole convolution. -/
theorem layer_3 (c : Dev nD) : W10 m ρ c (Proc.devRef .tc main_v48) = h3 m c :=
  (W10_arr m ρ c 3).trans ((Cert.KernelIdeal.Region5.final (V9 m ρ) c (Cert.Gnn.degree (x11 m c)) (x7 m c)
      (degreeColumn_3 m ρ c) (biasRow_3 m ρ c)).trans (by
    show Cert.Gnn.finish (W9 m ρ c (Proc.devRef .tc main_v45)) _ _ = _
    rw [messages_3 m ρ c]
    rfl))

/-! ## Convolution 4 -/

/-- The projection region's output: the features times the weight. -/
theorem projection_4 (c : Dev nD) : W11 m ρ c (Proc.devRef .tc main_v49) = Cert.Gnn.project (h1 m c) (x8 m c) :=
  (W11_arr m ρ c 2).trans ((Cert.KernelIdeal.Region6.final (V10 m ρ) c).trans (by
    show Cert.Gnn.project (W10 m ρ c (Proc.devRef .tc main_v20)) (W10 m ρ c (Proc.devRef .tc main_arg8)) = _
    rw [(kept_main_v20_10 m ρ c).trans (layer_1 m ρ c), kept_main_arg8_10 m ρ c]))

/-- The host stretch after it: the messages gathered along the edges and summed at their destinations. -/
theorem messages_4 (c : Dev nD) : W12 m ρ c (Proc.devRef .tc main_v59) = Cert.Gnn.aggregate (Cert.Gnn.project (h1 m c) (x8 m c)) (x12 m c) (x13 m c) := by
  show StableHlo.after hostOps7 (W11 m ρ c) (Proc.devRef .tc main_v59) = _
  unfold hostOps7
  after_results_simp
  rw [projection_4 m ρ c, kept_main_arg12_11 m ρ c, kept_main_arg13_11 m ρ c]
  rfl

/-- The degree vector re-laid as a column for the normalising kernel. -/
theorem degreeColumn_4 (c : Dev nD) :
    W12 m ρ c (Proc.devRef .tc main_v60) = shapeCast S100000x1 (Cert.Gnn.degree (x13 m c)) shapeCasts_S100000_S100000x1 := by
  show StableHlo.after hostOps7 (W11 m ρ c) (Proc.devRef .tc main_v60) = _
  unfold hostOps7
  after_results_simp
  rw [kept_main_v6_11 m ρ c, degree_iu m ρ c]
  rfl

/-- The bias re-laid as a row. -/
theorem biasRow_4 (c : Dev nD) :
    W12 m ρ c (Proc.devRef .tc main_v61) = shapeCast S1x128 (x9 m c) shapeCasts_S128_S1x128 := by
  show StableHlo.after hostOps7 (W11 m ρ c) (Proc.devRef .tc main_v61) = _
  unfold hostOps7
  after_results_simp
  rw [kept_main_arg9_11 m ρ c]
  rfl

/-- The normalising region's output: the whole convolution. -/
theorem layer_4 (c : Dev nD) : W13 m ρ c (Proc.devRef .tc main_v62) = h4 m c :=
  (W13_arr m ρ c 3).trans ((Cert.KernelIdeal.Region7.final (V12 m ρ) c (Cert.Gnn.degree (x13 m c)) (x9 m c)
      (degreeColumn_4 m ρ c) (biasRow_4 m ρ c)).trans (by
    show Cert.Gnn.finish (W12 m ρ c (Proc.devRef .tc main_v59)) _ _ = _
    rw [messages_4 m ρ c]
    rfl))

/-! ## The result -/

/-- The result buffer after the last stretch: the users' and the items' second-layer features, stacked. -/
theorem result (c : Dev nD) :
    W14 m ρ c (Proc.devRef .tc main_v65)
      = Cert.Gnn.network (x0 m c) (x1 m c) (x2 m c) (x3 m c) (x4 m c) (x5 m c) (x6 m c) (x7 m c) (x8 m c) (x9 m c) (x10 m c) (x11 m c) (x12 m c) (x13 m c) := by
  show StableHlo.after hostOps8 (W13 m ρ c) (Proc.devRef .tc main_v65) = _
  unfold hostOps8
  after_results
  rw [layer_4 m ρ c, kept_main_v48_13 m ρ c, layer_3 m ρ c]
  rfl

end Cert.KernelIdeal.Trace

end
-- ==== Proof.lean ====
/-
  A two-layer graph network over a bipartite graph, tiled kernels against a plain reference.

  Both programs compute, for users and items with one edge type each way, two layers of the graph convolution
  `max (A / max deg 1 + b) 0`, where `A` sums along the edges the projected features `h · W` of the sources and `deg`
  counts the edges arriving at each node; the result stacks the two second-layer arrays (`Cert.Gnn.network`).

  The reference is that expression, one host operation after another. The kernel program does the projection and
  the normalisation in tiled kernels (ten blocks of 10000 rows, twenty of 5000) and the gather and the scatter-adds
  on the host between them, computing the degrees once for both layers. On exact values each projection block is the
  whole product read through the block (the same sum over the 128 features, the narrowing to bf16 the identity), each
  normalised block is the reference's pointwise expression read through the block, and the blocks tile their arrays;
  everything in between is the same host operation on both sides. So the two results are one function of the
  arguments, with no law of arithmetic needed beyond reading each operation at an index, and the precondition unused.

  The three frames are the generated ones (the reference's being its generated run with the result dropped); the
  idealization rewrote nothing, so `preserves` has nothing to state.
-/
import proofs.«180740_j23252952940857_1_alg».proof.Defs
import proofs.«180740_j23252952940857_1_alg».proof.Proof.Gen.Kernel
import proofs.«180740_j23252952940857_1_alg».proof.Proof.Gen.Kernel.Skeleton
import proofs.«180740_j23252952940857_1_alg».proof.Proof.Gen.Kernel.Launch
import proofs.«180740_j23252952940857_1_alg».proof.Proof.Gen.Kernel.Points
import proofs.«180740_j23252952940857_1_alg».proof.Proof.Gen.Kernel.Frame
import proofs.«180740_j23252952940857_1_alg».proof.Proof.Gen.KernelIdeal
import proofs.«180740_j23252952940857_1_alg».proof.Proof.Gen.KernelIdeal.Skeleton
import proofs.«180740_j23252952940857_1_alg».proof.Proof.Gen.KernelIdeal.Launch
import proofs.«180740_j23252952940857_1_alg».proof.Proof.Gen.KernelIdeal.Points
import proofs.«180740_j23252952940857_1_alg».proof.Proof.Gen.KernelIdeal.Frame
import proofs.«180740_j23252952940857_1_alg».proof.Proof.Gen.ReferenceIdeal
import proofs.«180740_j23252952940857_1_alg».proof.Proof.Gen.ReferenceIdeal.Run
import proofs.«180740_j23252952940857_1_alg».proof.Proof.Gen.ReferenceIdeal.Read
import proofs.«180740_j23252952940857_1_alg».proof.Proof.Gen.Pre_finite_inputs
import proofs.«180740_j23252952940857_1_alg».proof.Proof.RefIsSpec
import proofs.«180740_j23252952940857_1_alg».proof.Proof.KernelRun
import proofs.«180740_j23252952940857_1_alg».proof.Proof.Trace
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On exact values, from memories agreeing on the arguments, both programs end with the network of the arguments in
    their result buffers: the kernel program by its run traced through its segments, the reference by its run, whose
    term is the network as it stands. -/
theorem algebraic : Cert.algebraic_KernelIdeal_ReferenceIdeal := by
  intro m ρ m' ρ' _ hagree
  refine ⟨fun c => Cert.Gnn.network (Cert.KernelIdeal.Trace.x0 m c) (Cert.KernelIdeal.Trace.x1 m c) (Cert.KernelIdeal.Trace.x2 m c) (Cert.KernelIdeal.Trace.x3 m c) (Cert.KernelIdeal.Trace.x4 m c) (Cert.KernelIdeal.Trace.x5 m c) (Cert.KernelIdeal.Trace.x6 m c) (Cert.KernelIdeal.Trace.x7 m c) (Cert.KernelIdeal.Trace.x8 m c) (Cert.KernelIdeal.Trace.x9 m c) (Cert.KernelIdeal.Trace.x10 m c) (Cert.KernelIdeal.Trace.x11 m c) (Cert.KernelIdeal.Trace.x12 m c) (Cert.KernelIdeal.Trace.x13 m c), ?_, ?_⟩
  · exact (θ_run Cert.KernelIdeal.defs _ _).mono
      (fun _ h c => ⟨(h c).1.trans (Cert.KernelIdeal.Trace.result m ρ c), (h c).2⟩)
      (Cert.KernelIdeal.RunValue.run (F := Ideal) m ρ)
  · refine (θ_run Cert.ReferenceIdeal.defs _ _).mono (fun _ h c => ⟨(h c).1.trans ?_, (h c).2⟩)
      (Cert.ReferenceIdeal.Value.run (F := Ideal) m' ρ')
    rw [Cert.Gnn.reference_eq]
    obtain ⟨e0, e1, e2, e3, e4, e5, e6, e7, e8, e9, e10, e11, e12, e13⟩ := hagree c
    rw [e0, e1, e2, e3, e4, e5, e6, e7, e8, e9, e10, e11, e12, e13]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
